-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S16384x768 : Shape := ⟨2, ![16384, 768]⟩
abbrev S16384x1 : Shape := ⟨2, ![16384, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x1 : S_.BroadcastsInDim S16384x1 (![] : Fin 0 → Fin S16384x1.rank)
  reducesTo_S16384x1_S_d0_1 : S16384x1.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S1x1 .f32) (main_arg6 : FVec F S1 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4096x768 .f32) (main_arg1 : FVec F S16384x768 .f32) (main_arg2 : FVec F S16384x1 .f32) (main_arg3 : FVec F S512x768 .f32) (main_arg4 : FVec F S512 .f32) (main_arg5 : FVec F S1x1 .f32) (main_arg6 : FVec F S1 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_v13 main_v16
-- ==== Kernel.lean ====
abbrev S4096x768 : Shape := ⟨2, ![4096, 768]⟩
abbrev S16384x768 : Shape := ⟨2, ![16384, 768]⟩
abbrev S16384x1 : Shape := ⟨2, ![16384, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S1x512 : Shape := ⟨2, ![1, 512]⟩
abbrev S16384x512 : Shape := ⟨2, ![16384, 512]⟩
abbrev S1024x768 : Shape := ⟨2, ![1024, 768]⟩
abbrev S1024x512 : Shape := ⟨2, ![1024, 512]⟩
abbrev S1024 : Shape := ⟨1, ![1024]⟩
abbrev S1024x1 : Shape := ⟨2, ![1024, 1]⟩
abbrev S_ : Shape := ⟨0, ![]⟩
abbrev S1x16384 : Shape := ⟨2, ![1, 16384]⟩
abbrev S4096x1 : Shape := ⟨2, ![4096, 1]⟩
abbrev S1x1024 : Shape := ⟨2, ![1, 1024]⟩
abbrev S1024x1024 : Shape := ⟨2, ![1024, 1024]⟩

abbrev nBuf : Space → Nat
  | .hbm => 32
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S16384x768, .f32⟩
  | .hbm, ⟨2, _⟩ => ⟨S16384x1, .f32⟩
  | .hbm, ⟨3, _⟩ => ⟨S512x768, .f32⟩
  | .hbm, ⟨4, _⟩ => ⟨S512, .f32⟩
  | .hbm, ⟨5, _⟩ => ⟨S1x1, .f32⟩
  | .hbm, ⟨6, _⟩ => ⟨S1, .f32⟩
  | .hbm, ⟨7, _⟩ => ⟨S1x512, .f32⟩
  | .hbm, ⟨8, _⟩ => ⟨S16384x512, .bf16⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S1x16384, .f32⟩
  | .hbm, ⟨16, _⟩ => ⟨S1x512, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .local _ .vmem, ⟨0, _⟩ => ⟨S1024x768, .f32⟩
  | .local _ .vmem, ⟨1, _⟩ => ⟨S1024x768, .f32⟩
  | .local _ .vmem, ⟨2, _⟩ => ⟨S512x768, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x768, .f32⟩
  | .local _ .vmem, ⟨7, _⟩ => ⟨S1024x768, .f32⟩
  | .local _ .vmem, ⟨8, _⟩ => ⟨S512x768, .f32⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S1x1024, .f32⟩
  | .local _ .vmem, ⟨14, _⟩ => ⟨S1024x1, .f32⟩
  | .local _ .vmem, ⟨15, _⟩ => ⟨S1024x1, .f32⟩
  | .local _ .vmem, ⟨16, _⟩ => ⟨S1024x512, .bf16⟩
  | .local _ .vmem, ⟨17, _⟩ => ⟨S1024x1, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S512_S1x512 : S512.ShapeCasts S1x512
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  bcast_S_S16384x1 : S_.BroadcastsInDim S16384x1 (![] : Fin 0 → Fin S16384x1.rank)
  shapeCasts_S16384x1_S1x16384 : S16384x1.ShapeCasts S1x16384
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1x1_S_ : S1x1.ShapeCasts S_
  bcast_S_S4096x1 : S_.BroadcastsInDim S4096x1 (![] : Fin 0 → Fin S4096x1.rank)
  shapeCasts_S1_S_ : S1.ShapeCasts S_
  dot_S1024x768_S512x768_S1024x512_1_1_0_0_n_n_wf : DotDims.WF S1024x768 S512x768 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .bf16 = 32 ∨ (Rect.block (s := S16384x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S4096x768.size a
  hwx1_0 : ∀ i : grid1.Coords, EltTy.bits .f32 = 32 ∨ (Rect.block (s := S4096x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S16384x512.size a
  hwx1_3 : ∀ i : grid1.Coords, EltTy.bits .bf16 = 32 ∨ (Rect.block (s := S16384x512) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x16384.size a
  hwx1_4 : ∀ i : grid1.Coords, EltTy.bits .f32 = 32 ∨ (Rect.block (s := S1x16384) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S4096x1.size a
  hwx1_5 : ∀ i : grid1.Coords, EltTy.bits .f32 = 32 ∨ (Rect.block (s := S4096x1) S1024x1.size (cc1_transform_5 i) (hinb1_5 i)).WholeWords (EltTy.packing .f32)

variable [Facts₀]

def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg1) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x768 : Shape := ⟨2, ![4096, 768]⟩
abbrev S16384x768 : Shape := ⟨2, ![16384, 768]⟩
abbrev S16384x1 : Shape := ⟨2, ![16384, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩
abbrev S768x512 : Shape := ⟨2, ![768, 512]⟩
abbrev S4096x512 : Shape := ⟨2, ![4096, 512]⟩
abbrev S1x512 : Shape := ⟨2, ![1, 512]⟩
abbrev S16384x512 : Shape := ⟨2, ![16384, 512]⟩
abbrev S4096 : Shape := ⟨1, ![4096]⟩
abbrev S4096x1 : Shape := ⟨2, ![4096, 1]⟩
abbrev S16384 : Shape := ⟨1, ![16384]⟩
abbrev S512x16384 : Shape := ⟨2, ![512, 16384]⟩
abbrev S4096x16384 : Shape := ⟨2, ![4096, 16384]⟩

abbrev nBuf : Space → Nat
  | .hbm => 65
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S16384x768, .f32⟩
  | .hbm, ⟨2, _⟩ => ⟨S16384x1, .f32⟩
  | .hbm, ⟨3, _⟩ => ⟨S512x768, .f32⟩
  | .hbm, ⟨4, _⟩ => ⟨S512, .f32⟩
  | .hbm, ⟨5, _⟩ => ⟨S1x1, .f32⟩
  | .hbm, ⟨6, _⟩ => ⟨S1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S768x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S768x512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S16384x512, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x512, .f32⟩
  | .hbm, ⟨42, _⟩ => ⟨S16384x512, .f32⟩
  | .hbm, ⟨43, _⟩ => ⟨S512x16384, .f32⟩
  | .hbm, ⟨44, _⟩ => ⟨S4096x16384, .f32⟩
  | .hbm, ⟨45, _⟩ => ⟨S4096x16384, .f32⟩
  | .hbm, ⟨46, _⟩ => ⟨S_, .f32⟩
  | .hbm, ⟨47, _⟩ => ⟨S4096x16384, .f32⟩
  | .hbm, ⟨48, _⟩ => ⟨S4096x16384, .f32⟩
  | .hbm, ⟨49, _⟩ => ⟨S4096x16384, .f32⟩
  | .hbm, ⟨50, _⟩ => ⟨S4096x16384, .f32⟩
  | .hbm, ⟨51, _⟩ => ⟨S4096x1, .f32⟩
  | .hbm, ⟨52, _⟩ => ⟨S1x1, .f32⟩
  | .hbm, ⟨53, _⟩ => ⟨S4096x1, .f32⟩
  | .hbm, ⟨54, _⟩ => ⟨S1x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  transposes_S512x768_S768x512_1_0 : S512x768.Transposes [1, 0] S768x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S1x512_S16384x512_0_1 : S1x512.BroadcastsInDim S16384x512 (![0, 1] : Fin 2 → Fin S16384x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S16384x512_S16384_d1 : S16384x512.ReducesTo [1] S16384
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S16384x512_S512x16384_1_0 : S16384x512.Transposes [1, 0] S512x16384
  bcast_S_S4096x16384 : S_.BroadcastsInDim S4096x16384 (![] : Fin 0 → Fin S4096x16384.rank)
  transposes_S1x1_S1x1_1_0 : S1x1.Transposes [1, 0] S1x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x768_S768x512_S4096x512_1_0_0_1_n_n_wf : DotDims.WF S4096x768 S768x512 S4096x512 [1] [0] [0] [1] [] []
  dot_S16384x768_S768x512_S16384x512_1_0_0_1_n_n_wf : DotDims.WF S16384x768 S768x512 S16384x512 [1] [0] [0] [1] [] []
  dot_S4096x512_S512x16384_S4096x16384_1_0_0_1_n_n_wf : DotDims.WF S4096x512 S512x16384 S4096x16384 [1] [0] [0] [1] [] []
  dot_S4096x16384_S16384x1_S4096x1_1_0_0_1_n_n_wf : DotDims.WF S4096x16384 S16384x1 S4096x1 [1] [0] [0] [1] [] []
  dot_S4096x1_S1x1_S4096x1_1_0_0_1_n_n_wf : DotDims.WF S4096x1 S1x1 S4096x1 [1] [0] [0] [1] [] []

variable [Facts₀]

def dot_S4096x768_S768x512_S4096x512_1_0_0_1_n_n : DotDims S4096x768 S768x512 S4096x512 where
  lhsContracting := [1]
  rhsContracting := [0]
  lhsNonContracting := [0]
  rhsNonContracting := [1]
  lhsBatch := []
  rhsBatch := []
  wf := dot_S4096x768_S768x512_S4096x512_1_0_0_1_n_n_wf
def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S4096x512_S512x16384_S4096x16384_1_0_0_1_n_n : DotDims S4096x512 S512x16384 S4096x16384 where
  lhsContracting := [1]
  rhsContracting := [0]
  lhsNonContracting := [0]
  rhsNonContracting := [1]
  lhsBatch := []
  rhsBatch := []
  wf := dot_S4096x512_S512x16384_S4096x16384_1_0_0_1_n_n_wf
def dot_S4096x16384_S16384x1_S4096x1_1_0_0_1_n_n : DotDims S4096x16384 S16384x1 S4096x1 where
  lhsContracting := [1]
  rhsContracting := [0]
  lhsNonContracting := [0]
  rhsNonContracting := [1]
  lhsBatch := []
  rhsBatch := []
  wf := dot_S4096x16384_S16384x1_S4096x1_1_0_0_1_n_n_wf
def dot_S4096x1_S1x1_S4096x1_1_0_0_1_n_n : DotDims S4096x1 S1x1 S4096x1 where
  lhsContracting := [1]
  rhsContracting := [0]
  lhsNonContracting := [0]
  rhsNonContracting := [1]
  lhsBatch := []
  rhsBatch := []
  wf := dot_S4096x1_S1x1_S4096x1_1_0_0_1_n_n_wf

class Facts : Prop extends Facts₀ where

variable [Facts]
-- ==== Proof.KReg0.lean ====
import proofs.«106562_j60000693125634_2_alg».proof.Proof.Gen.Kernel.Launch
import proofs.«106562_j60000693125634_2_alg».proof.Proof.Gen.Kernel.Skeleton
import proofs.«106562_j60000693125634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first region: each block of 1024 rows is projected, shifted by the bias and divided by its row norm.
    Everything here is stated at a parameter `V`, the contents of the core's buffers when the region is entered. -/

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1024x768 := Rect.unit (s := S1024x768) ![0, 0] S1024x768.size inb_S1024x768_S1024x768_0_0
abbrev r0_1 : Rect S512x768 := Rect.unit (s := S512x768) ![0, 0] S512x768.size inb_S512x768_S512x768_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-- What the body leaves in the output window's buffer: its one store, over the three input blocks. -/
def out0_3 (x0 : Vec F S1024x768 .f32) (x1 : Vec F S512x768 .f32) (x2 : Vec F S1x512 .f32) : Vec F S1024x512 .bf16 :=
  View.canon [⟨r0_3, k0_pay1 (View.ld x0 r0_0) (View.ld x1 r0_1) (View.ld x2 r0_2)⟩]

/-- The one store covers the buffer. -/
theorem cover0_3 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

set_option maxHeartbeats 1000000 in
/-- The body, run on whole staging buffers holding the three input blocks, leaves them as they were and the output
    buffer at `out0_3` of them. -/
theorem sound_kernel0 (c : Dev nD) (E : Set ℕ) (i : grid0.Coords)
    (arg1 : Memref sig .tc .vmem S1024x768 .f32) (harg1 : arg1.IsWhole) (arg2 : Memref sig .tc .vmem S512x768 .f32) (harg2 : arg2.IsWhole)
    (arg3 : Memref sig .tc .vmem S1x512 .f32) (harg3 : arg3.IsWhole) (arg4 : Memref sig .tc .vmem S1024x512 .bf16) (harg4 : arg4.IsWhole)
    (x0 : Vec F S1024x768 .f32) (x1 : Vec F S512x768 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_norm_kernel i arg1 harg1 arg2 harg2 arg3 harg3 arg4 harg4) K := by
  simp only [cc0__proj_norm_kernel_eq_skeleton]; unfold cc0__proj_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first region on core `c`: its arrays as the region finds them; after the body at point `t`
    each input buffer still at its block and the output buffer at `out0_3` of the blocks; nothing else kept. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1Runs.lean ====
import proofs.«106562_j60000693125634_2_alg».proof.Proof.Gen.Kernel.Launch
import proofs.«106562_j60000693125634_2_alg».proof.Proof.Gen.Kernel.Skeleton
import proofs.«106562_j60000693125634_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region: for each block of 1024 query rows, 16 grid points sweep the exemplar blocks. At the first
    point of a sweep the body writes the normalized projected rows into one scratch buffer and zeroes the other;
    at every point it adds the block's weighted sum of cubes to the second; at the last point it copies that sum out.
    Here: the body's run in each of the three control cases. -/

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- "This is the first exemplar block of the sweep." -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last exemplar block of the sweep." -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S1024x1 .f32 := (Memref.whole cc1_stg5_0 : Memref sig .tc .vmem S1024x1 .f32).view
abbrev ms1_0 (t : Fin cfg1.N) : Memref sig .tc .vmem S1024x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two scratch buffers: the normalized query rows, and the running sum. -/
abbrev scM1_0 : Memref sig .tc .vmem S1024x512 .bf16 := Memref.whole cc1_scratch0
abbrev scM1_1 : Memref sig .tc .vmem S1024x1 .f32 := Memref.whole cc1_scratch1
abbrev VS1_0 : View sig .tc .vmem S1024x512 .bf16 := scM1_0.view
abbrev VS1_1 : View sig .tc .vmem S1024x1 .f32 := scM1_1.view

/-- The other region's staging buffers: scoped, never touched here. -/
def restOther (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's untracked invariant, with the two scratch buffers singled out. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ restOther (F := F) c ∗ (∃ r, prngReg c r)) := by
  unfold Pipeline.ΦA restOther; rw [scopedRest1_eq]; simp only [scM1_0, scM1_1, owns_whole]
  iintro ⟨⟨H1, H2, H3, H4, H5, H6, HS0, HS1⟩, Hg⟩
  isplitl [HS0]; · iexact HS0
  isplitl [HS1]; · iexact HS1
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hg

theorem PhiA1_join (c : Dev nD) :
    iprop((∃ d, owns (c : Thread nD τ) scM1_0 fullShare d) ∗ (∃ d, owns (c : Thread nD τ) scM1_1 fullShare d) ∗ restOther (F := F) c ∗ (∃ r, prngReg c r))
      ⊢ (Pipeline.ΦA spec1 c : sProp 𝕄) := by
  unfold Pipeline.ΦA restOther; rw [scopedRest1_eq]; simp only [scM1_0, scM1_1, owns_whole]
  iintro ⟨HS0, HS1, ⟨H1, H2, H3, H4, H5, H6⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iexact Hg

/-! ## The body's run, case by case -/

set_option maxHeartbeats 1000000 in
/-- FIRST POINT OF A SWEEP (not the last): the output buffer is handed back untouched; both scratch buffers are
    taken at anything and left with the pieces the stores wrote (found by the run). -/
noncomputable def kernelRun1_A (c : Dev nD) (i : grid1.Coords) (arg2 : Memref sig .tc .vmem S1024x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1024x1 .f32) (harg9 : arg9.IsWhole) (hc0 : cond1_0 i) (hc1 : ¬cond1_1 i)
    (x0 : Vec F S1024x768 .f32) (x1 : Vec F S512x768 .f32) (x2 : Vec F S1x512 .f32) (x3 : Vec F S1024x512 .bf16) (x4 : Vec F S1x1024 .f32) :
    Σ' (LS0 : List (View.Piece (Elt F) S1024x512 .bf16)), { LS1 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__knn_kernel i arg2 harg2 arg3 harg3 arg4 harg4 arg5 harg5 arg6 harg6 arg7 harg7 arg8 harg8 arg9 harg9) K } := by
  refine ⟨?_, ?_, fun xi5 E K => ?run⟩
  case run =>
    simp only [cc1__knn_kernel_eq_skeleton]; unfold cc1__knn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 1000000 in
/-- A MIDDLE POINT: the output buffer is handed back untouched; the first scratch buffer is only read; the second is
    taken at what the point before left and left with the pieces the store wrote. -/
noncomputable def kernelRun1_B (c : Dev nD) (i : grid1.Coords) (arg2 : Memref sig .tc .vmem S1024x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1024x1 .f32) (harg9 : arg9.IsWhole) (hc0 : ¬cond1_0 i) (hc1 : ¬cond1_1 i)
    (x0 : Vec F S1024x768 .f32) (x1 : Vec F S512x768 .f32) (x2 : Vec F S1x512 .f32) (x3 : Vec F S1024x512 .bf16) (x4 : Vec F S1x1024 .f32) (xs0 : Vec F S1024x512 .bf16) (xs1 : Vec F S1024x1 .f32) :
    { LS1 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__knn_kernel i arg2 harg2 arg3 harg3 arg4 harg4 arg5 harg5 arg6 harg6 arg7 harg7 arg8 harg8 arg9 harg9) K } := by
  refine ⟨?_, fun xi5 E K => ?run⟩
  case run =>
    simp only [cc1__knn_kernel_eq_skeleton]; unfold cc1__knn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

set_option maxHeartbeats 1000000 in
/-- THE LAST POINT OF A SWEEP: as a middle point, and the output buffer, taken at anything, is left with the pieces
    the final copy wrote. -/
noncomputable def kernelRun1_C (c : Dev nD) (i : grid1.Coords) (arg2 : Memref sig .tc .vmem S1024x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1024x1 .f32) (harg9 : arg9.IsWhole) (hc0 : ¬cond1_0 i) (hc1 : cond1_1 i)
    (x0 : Vec F S1024x768 .f32) (x1 : Vec F S512x768 .f32) (x2 : Vec F S1x512 .f32) (x3 : Vec F S1024x512 .bf16) (x4 : Vec F S1x1024 .f32) (xs0 : Vec F S1024x512 .bf16) (xs1 : Vec F S1024x1 .f32) :
    Σ' (L5 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__knn_kernel i arg2 harg2 arg3 harg3 arg4 harg4 arg5 harg5 arg6 harg6 arg7 harg7 arg8 harg8 arg9 harg9) K } := by
  refine ⟨?_, ?_, fun E K => ?run⟩
  case run =>
    simp only [cc1__knn_kernel_eq_skeleton]; unfold cc1__knn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.Kernel.Hand

end
-- ==== Proof.KReg1.lean ====
import proofs.«106562_j60000693125634_2_alg».proof.Proof.KReg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second region, point by point: what the scratch buffers and the output buffer hold after each grid point,
    the region's proof data over that, and the body obligation. -/

variable (V : (c : Dev nD) → (b : Ref sig .tc) → Buf (Elt F) ((c : Thread nD τ).loc b))

/-- The run of the body at a first point of a sweep, on the point's staging buffers and blocks. -/
abbrev runA (c : Dev nD) (t : Fin cfg1.N) (h0 : t.val % 16 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t) (iblk1 V c 4 t)
/-- The run at a middle point, over what the point before left in the two scratch buffers. -/
abbrev runB (c : Dev nD) (t : Fin cfg1.N) (h0 : ¬t.val % 16 = 0) (h1 : ¬t.val % 16 = 15) (xs0 : Vec F S1024x512 .bf16) (xs1 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1
/-- The run at the last point of a sweep. -/
abbrev runC (c : Dev nD) (t : Fin cfg1.N) (h0 : ¬t.val % 16 = 0) (h1 : t.val % 16 = 15) (xs0 : Vec F S1024x512 .bf16) (xs1 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1

/-! ## The pieces cover the buffers they were stored into -/

theorem scoverA_0 (c : Dev nD) (t : Fin cfg1.N) (h0 : t.val % 16 = 0) (y : S1024x512.Idx) :
    ∃ pc ∈ (runA V c t h0).1, y ∈ pc.1.set :=
  View.cover_of_tiledL (runA V c t h0).1 S1024x512.size (by sl_kernel_rfl) y
theorem scoverA_1 (c : Dev nD) (t : Fin cfg1.N) (h0 : t.val % 16 = 0) (y : S1024x1.Idx) :
    ∃ pc ∈ (runA V c t h0).2.1, y ∈ pc.1.set :=
  View.cover_of_tiledL (runA V c t h0).2.1 S1024x1.size (by sl_kernel_rfl) y
theorem scoverB_1 (c : Dev nD) (t : Fin cfg1.N) (h0 : ¬t.val % 16 = 0) (h1 : ¬t.val % 16 = 15) (xs0 : Vec F S1024x512 .bf16) (xs1 : Vec F S1024x1 .f32) (y : S1024x1.Idx) :
    ∃ pc ∈ (runB V c t h0 h1 xs0 xs1).1, y ∈ pc.1.set :=
  View.cover_of_tiledL (runB V c t h0 h1 xs0 xs1).1 S1024x1.size (by sl_kernel_rfl) y
theorem coverC_5 (c : Dev nD) (t : Fin cfg1.N) (h0 : ¬t.val % 16 = 0) (h1 : t.val % 16 = 15) (xs0 : Vec F S1024x512 .bf16) (xs1 : Vec F S1024x1 .f32) (y : S1024x1.Idx) :
    ∃ pc ∈ (runC V c t h0 h1 xs0 xs1).1, y ∈ pc.1.set :=
  View.cover_of_tiledL (runC V c t h0 h1 xs0 xs1).1 S1024x1.size (by sl_kernel_rfl) y
theorem scoverC_1 (c : Dev nD) (t : Fin cfg1.N) (h0 : ¬t.val % 16 = 0) (h1 : t.val % 16 = 15) (xs0 : Vec F S1024x512 .bf16) (xs1 : Vec F S1024x1 .f32) (y : S1024x1.Idx) :
    ∃ pc ∈ (runC V c t h0 h1 xs0 xs1).2.1, y ∈ pc.1.set :=
  View.cover_of_tiledL (runC V c t h0 h1 xs0 xs1).2.1 S1024x1.size (by sl_kernel_rfl) y

/-! ## What each case leaves -/

/-- A placeholder for the output buffer at the points where the window is idle (never consulted). -/
def idle5 : Vec F S1024x1 .f32 := VO1_5.read (Elt F) VO1_5.junk
def sA0 (c : Dev nD) (t : Fin cfg1.N) (h0 : t.val % 16 = 0) : Vec F S1024x512 .bf16 :=
  VS1_0.read (Elt F) (VS1_0.writes (Elt F) VS1_0.junk (runA V c t h0).1)
def sA1 (c : Dev nD) (t : Fin cfg1.N) (h0 : t.val % 16 = 0) : Vec F S1024x1 .f32 :=
  VS1_1.read (Elt F) (VS1_1.writes (Elt F) VS1_1.junk (runA V c t h0).2.1)
def sB1 (c : Dev nD) (t : Fin cfg1.N) (h0 : ¬t.val % 16 = 0) (h1 : ¬t.val % 16 = 15) (xs0 : Vec F S1024x512 .bf16) (xs1 : Vec F S1024x1 .f32) : Vec F S1024x1 .f32 :=
  VS1_1.read (Elt F) (VS1_1.writes (Elt F) VS1_1.junk (runB V c t h0 h1 xs0 xs1).1)
def oC5 (c : Dev nD) (t : Fin cfg1.N) (h0 : ¬t.val % 16 = 0) (h1 : t.val % 16 = 15) (xs0 : Vec F S1024x512 .bf16) (xs1 : Vec F S1024x1 .f32) : Vec F S1024x1 .f32 :=
  VO1_5.read (Elt F) (VO1_5.writes (Elt F) VO1_5.junk (runC V c t h0 h1 xs0 xs1).1)
def sC1 (c : Dev nD) (t : Fin cfg1.N) (h0 : ¬t.val % 16 = 0) (h1 : t.val % 16 = 15) (xs0 : Vec F S1024x512 .bf16) (xs1 : Vec F S1024x1 .f32) : Vec F S1024x1 .f32 :=
  VS1_1.read (Elt F) (VS1_1.writes (Elt F) VS1_1.junk (runC V c t h0 h1 xs0 xs1).2.1)

/-- THE ACCUMULATION: after the body at position `n`, what the output buffer, the normalized-rows scratch and the
    running-sum scratch hold — by recursion on the position: a first point of a sweep starts afresh, every other
    point builds on what the point before left. -/
def outsAt1 (c : Dev nD) : (n : ℕ) → n < cfg1.N → Vec F S1024x1 .f32 × Vec F S1024x512 .bf16 × Vec F S1024x1 .f32
  | 0, hn => (idle5, sA0 V c ⟨0, hn⟩ (Nat.zero_mod _), sA1 V c ⟨0, hn⟩ (Nat.zero_mod _))
  | n + 1, hn =>
    if h0 : (n + 1) % 16 = 0 then
      (idle5, sA0 V c ⟨n + 1, hn⟩ h0, sA1 V c ⟨n + 1, hn⟩ h0)
    else if h1 : (n + 1) % 16 = 15 then
      (oC5 V c ⟨n + 1, hn⟩ h0 h1 (outsAt1 c n (Nat.lt_of_succ_lt hn)).2.1 (outsAt1 c n (Nat.lt_of_succ_lt hn)).2.2,
        (outsAt1 c n (Nat.lt_of_succ_lt hn)).2.1,
        sC1 V c ⟨n + 1, hn⟩ h0 h1 (outsAt1 c n (Nat.lt_of_succ_lt hn)).2.1 (outsAt1 c n (Nat.lt_of_succ_lt hn)).2.2)
    else
      (idle5, (outsAt1 c n (Nat.lt_of_succ_lt hn)).2.1,
        sB1 V c ⟨n + 1, hn⟩ h0 h1 (outsAt1 c n (Nat.lt_of_succ_lt hn)).2.1 (outsAt1 c n (Nat.lt_of_succ_lt hn)).2.2)

/-- What the point before `t` left (for a point that is not the very first). -/
abbrev prevAt (c : Dev nD) (t : Fin cfg1.N) := outsAt1 V c (t.val - 1) (Nat.lt_of_le_of_lt (Nat.sub_le _ _) t.isLt)

theorem outsAt1_A (c : Dev nD) (t : Fin cfg1.N) (h0 : t.val % 16 = 0) :
    outsAt1 V c t.val t.isLt = (idle5, sA0 V c t h0, sA1 V c t h0) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idle5, (prevAt V c t).2.1, sB1 V c t h0 h1 (prevAt V c t).2.1 (prevAt V c t).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (oC5 V c t h0 h1 (prevAt V c t).2.1 (prevAt V c t).2.2, (prevAt V c t).2.1,
      sC1 V c t h0 h1 (prevAt V c t).2.1 (prevAt V c t).2.2) := by
  obtain ⟨n, hn⟩ := t
  cases n with
  | zero => exact absurd (Nat.zero_mod _) h0
  | succ n => exact (dif_neg h0).trans ((dif_pos h1).trans rfl)

/-- The region's invariant before position `n`: before the first point nothing is known of the scratch buffers;
    afterwards each holds what the point before left in it. The other region's staging buffers and the generator
    register ride along untouched. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2)
      ∗ restOther (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2)
      ∗ restOther (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2)
      ∗ restOther (F := F) c ∗ (∃ r, prngReg c r)) := by
  cases n with
  | zero => exact absurd rfl hz
  | succ n => rfl

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

set_option maxHeartbeats 4800000 in
/-- The body at any point: the closed forms say which case the point is in; the invariant hands the body the scratch
    buffers (at anything before the very first point, else at what the point before left) and takes them back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 64 := lt_of_lt_of_eq t.isLt (show cfg1.N = 64 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [outsAt1_A V c t h0]
    unfold sA0 sA1; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_split (F := F) c) $$ HΦ
      icases HΦ' with ⟨HS0, HS1, Hr, Hg⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold oC5 sC1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply ((runC V c t h0 h1 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 Hr Hg]
      · isplitl [HS0]; · iexact HS0
        isplitl [HS1]
        · unfold owns; iexists _; isplitr
          swap; · iexact HS1
          ipureintro; exact View.read_writes_of_cover _ _ _ _ _ (scoverC_1 V c t h0 h1 _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sB1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply ((runB V c t h0 h1 _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1 Hr Hg]
      · isplitl [HS0]; · iexact HS0
        isplitl [HS1]
        · unfold owns; iexists _; isplitr
          swap; · iexact HS1
          ipureintro; exact View.read_writes_of_cover _ _ _ _ _ (scoverB_1 V c t h0 h1 _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Forgetting what the scratch buffers hold gives the untracked invariant back. -/
theorem PhiS1_forget (c : Dev nD) (s0 : Vec F S1024x512 .bf16) (s1 : Vec F S1024x1 .f32) :
    (iprop(owns (c : Thread nD τ) scM1_0 fullShare s0 ∗ owns (c : Thread nD τ) scM1_1 fullShare s1 ∗ restOther (F := F) c ∗ (∃ r, prngReg c r)) : sProp 𝕄)
      ⊢ Pipeline.ΦA spec1 c := by
  have h : (iprop(owns (c : Thread nD τ) scM1_0 fullShare s0 ∗ owns (c : Thread nD τ) scM1_1 fullShare s1 ∗ restOther (F := F) c ∗ (∃ r, prngReg c r)) : sProp 𝕄)
      ⊢ iprop((∃ d, owns (c : Thread nD τ) scM1_0 fullShare d) ∗ (∃ d, owns (c : Thread nD τ) scM1_1 fullShare d) ∗ restOther (F := F) c ∗ (∃ r, prngReg c r)) := by
    iintro ⟨HS0, HS1, Hr, Hg⟩
    isplitl [HS0]; · iexists _; iexact HS0
    isplitl [HS1]; · iexists _; iexact HS1
    isplitl [Hr]; · iexact Hr
    iexact Hg
  exact h.trans (PhiA1_join (F := F) c)

/-- After the last point the invariant gives the scoped buffers back, their contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  exact PhiS1_forget c _ _

end Cert.Kernel.Hand

end
-- ==== Proof.KRun.lean ====
import proofs.«106562_j60000693125634_2_alg».proof.Proof.KReg0
import proofs.«106562_j60000693125634_2_alg».proof.Proof.KReg1
import proofs.«106562_j60000693125634_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run: the program is a stretch of host operations, the first region, a second stretch, the second
    region, a last stretch. The contents of the core's buffers at each boundary are a fold from the launch memory;
    the run ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `W3`, left at `W4`; its invariant tracks the scratch buffers in between. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## The arguments end as launched -/

/-- No host stretch writes an argument; a region reads it through an input window or not at all: the fold at an
    argument's buffer walks back to the launch memory. -/
theorem W1_arg (c : Dev nD) (b : Ref sig .tc) (h : b ∉ hostOps0_W) : W1 m ρ c (Proc.devRef .tc b) = m ((c : Thread nD τ).loc b) :=
  StableHlo.after_of_writes_sub hostOps0 _ hostOps0_writes h
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h
theorem W5_of (c : Dev nD) (b : Ref sig .tc) (h : b ∉ hostOps2_W) : W5 m ρ c (Proc.devRef .tc b) = W4 m ρ c (Proc.devRef .tc b) :=
  StableHlo.after_of_writes_sub hostOps2 _ hostOps2_writes h
/-- An input window's array is left as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W5_main_arg0 (c : Dev nD) : W5 m ρ c (Proc.devRef .tc main_arg0) = m ((c : Thread nD τ).loc main_arg0) :=
  (W5_of m ρ c main_arg0 (by decide)).trans <| (W4_in m ρ c 0 rfl).trans <| (W3_of m ρ c main_arg0 (by decide)).trans <|
    (W2_of_ne m ρ c main_arg0 (by decide)).trans <| W1_arg m ρ c main_arg0 (by decide)
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_in m ρ c 0 rfl).trans <| W1_arg m ρ c main_arg1 (by decide)
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| W1_arg m ρ c main_arg2 (by decide)
theorem W5_main_arg3 (c : Dev nD) : W5 m ρ c (Proc.devRef .tc main_arg3) = m ((c : Thread nD τ).loc main_arg3) :=
  (W5_of m ρ c main_arg3 (by decide)).trans <| (W4_in m ρ c 1 rfl).trans <| (W3_of m ρ c main_arg3 (by decide)).trans <|
    (W2_in m ρ c 1 rfl).trans <| W1_arg m ρ c main_arg3 (by decide)
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| W1_arg m ρ c main_arg4 (by decide)
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <|
    (W2_of_ne m ρ c main_arg5 (by decide)).trans <| W1_arg m ρ c main_arg5 (by decide)
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    (W2_of_ne m ρ c main_arg6 (by decide)).trans <| W1_arg m ρ c main_arg6 (by decide)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.Kernel.Hand

end
-- ==== Proof.KIReg0.lean ====
import proofs.«106562_j60000693125634_2_alg».proof.Proof.Gen.KernelIdeal.Launch
import proofs.«106562_j60000693125634_2_alg».proof.Proof.Gen.KernelIdeal.Skeleton
import proofs.«106562_j60000693125634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first region: each block of 1024 rows is projected, shifted by the bias and divided by its row norm.
    Everything here is stated at a parameter `V`, the contents of the core's buffers when the region is entered. -/

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1024x768 := Rect.unit (s := S1024x768) ![0, 0] S1024x768.size inb_S1024x768_S1024x768_0_0
abbrev r0_1 : Rect S512x768 := Rect.unit (s := S512x768) ![0, 0] S512x768.size inb_S512x768_S512x768_0_0
abbrev r0_2 : Rect S1x512 := Rect.unit (s := S1x512) ![0, 0] S1x512.size inb_S1x512_S1x512_0_0
abbrev r0_3 : Rect S1024x512 := Rect.unit (s := S1024x512) ![0, 0] S1024x512.size inb_S1024x512_S1024x512_0_0

/-- What the body leaves in the output window's buffer: its one store, over the three input blocks. -/
def out0_3 (x0 : Vec F S1024x768 .f32) (x1 : Vec F S512x768 .f32) (x2 : Vec F S1x512 .f32) : Vec F S1024x512 .bf16 :=
  View.canon [⟨r0_3, k0_pay1 (View.ld x0 r0_0) (View.ld x1 r0_1) (View.ld x2 r0_2)⟩]

/-- The one store covers the buffer. -/
theorem cover0_3 (p0 : Vec F S1024x512 .bf16) (y : S1024x512.Idx) :
    ∃ pc ∈ ([⟨r0_3, p0⟩] : List (View.Piece (Elt F) S1024x512 .bf16)), y ∈ pc.1.set :=
  View.cover_of_tiled [⟨r0_3, p0⟩] S1024x512.size (by rfl) y

set_option maxHeartbeats 1000000 in
/-- The body, run on whole staging buffers holding the three input blocks, leaves them as they were and the output
    buffer at `out0_3` of them. -/
theorem sound_kernel0 (c : Dev nD) (E : Set ℕ) (i : grid0.Coords)
    (arg1 : Memref sig .tc .vmem S1024x768 .f32) (harg1 : arg1.IsWhole) (arg2 : Memref sig .tc .vmem S512x768 .f32) (harg2 : arg2.IsWhole)
    (arg3 : Memref sig .tc .vmem S1x512 .f32) (harg3 : arg3.IsWhole) (arg4 : Memref sig .tc .vmem S1024x512 .bf16) (harg4 : arg4.IsWhole)
    (x0 : Vec F S1024x768 .f32) (x1 : Vec F S512x768 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_norm_kernel i arg1 harg1 arg2 harg2 arg3 harg3 arg4 harg4) K := by
  simp only [cc0__proj_norm_kernel_eq_skeleton]; unfold cc0__proj_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first region on core `c`: its arrays as the region finds them; after the body at point `t`
    each input buffer still at its block and the output buffer at `out0_3` of the blocks; nothing else kept. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1Runs.lean ====
import proofs.«106562_j60000693125634_2_alg».proof.Proof.Gen.KernelIdeal.Launch
import proofs.«106562_j60000693125634_2_alg».proof.Proof.Gen.KernelIdeal.Skeleton
import proofs.«106562_j60000693125634_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region: for each block of 1024 query rows, 16 grid points sweep the exemplar blocks. At the first
    point of a sweep the body writes the normalized projected rows into one scratch buffer and zeroes the other;
    at every point it adds the block's weighted sum of cubes to the second; at the last point it copies that sum out.
    Here: the body's run in each of the three control cases. -/

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form over the grid -/

/-- "This is the first exemplar block of the sweep." -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "This is the last exemplar block of the sweep." -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev VO1_5 : View sig .tc .vmem S1024x1 .f32 := (Memref.whole cc1_stg5_0 : Memref sig .tc .vmem S1024x1 .f32).view
abbrev ms1_0 (t : Fin cfg1.N) : Memref sig .tc .vmem S1024x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The two scratch buffers: the normalized query rows, and the running sum. -/
abbrev scM1_0 : Memref sig .tc .vmem S1024x512 .bf16 := Memref.whole cc1_scratch0
abbrev scM1_1 : Memref sig .tc .vmem S1024x1 .f32 := Memref.whole cc1_scratch1
abbrev VS1_0 : View sig .tc .vmem S1024x512 .bf16 := scM1_0.view
abbrev VS1_1 : View sig .tc .vmem S1024x1 .f32 := scM1_1.view

/-- The other region's staging buffers: scoped, never touched here. -/
def restOther (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's untracked invariant, with the two scratch buffers singled out. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ restOther (F := F) c ∗ (∃ r, prngReg c r)) := by
  unfold Pipeline.ΦA restOther; rw [scopedRest1_eq]; simp only [scM1_0, scM1_1, owns_whole]
  iintro ⟨⟨H1, H2, H3, H4, H5, H6, HS0, HS1⟩, Hg⟩
  isplitl [HS0]; · iexact HS0
  isplitl [HS1]; · iexact HS1
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hg

theorem PhiA1_join (c : Dev nD) :
    iprop((∃ d, owns (c : Thread nD τ) scM1_0 fullShare d) ∗ (∃ d, owns (c : Thread nD τ) scM1_1 fullShare d) ∗ restOther (F := F) c ∗ (∃ r, prngReg c r))
      ⊢ (Pipeline.ΦA spec1 c : sProp 𝕄) := by
  unfold Pipeline.ΦA restOther; rw [scopedRest1_eq]; simp only [scM1_0, scM1_1, owns_whole]
  iintro ⟨HS0, HS1, ⟨H1, H2, H3, H4, H5, H6⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  iexact Hg

/-! ## The body's run, case by case -/

set_option maxHeartbeats 1000000 in
/-- FIRST POINT OF A SWEEP (not the last): the output buffer is handed back untouched; both scratch buffers are
    taken at anything and left with the pieces the stores wrote (found by the run). -/
noncomputable def kernelRun1_A (c : Dev nD) (i : grid1.Coords) (arg2 : Memref sig .tc .vmem S1024x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1024x1 .f32) (harg9 : arg9.IsWhole) (hc0 : cond1_0 i) (hc1 : ¬cond1_1 i)
    (x0 : Vec F S1024x768 .f32) (x1 : Vec F S512x768 .f32) (x2 : Vec F S1x512 .f32) (x3 : Vec F S1024x512 .bf16) (x4 : Vec F S1x1024 .f32) :
    Σ' (LS0 : List (View.Piece (Elt F) S1024x512 .bf16)), { LS1 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__knn_kernel i arg2 harg2 arg3 harg3 arg4 harg4 arg5 harg5 arg6 harg6 arg7 harg7 arg8 harg8 arg9 harg9) K } := by
  refine ⟨?_, ?_, fun xi5 E K => ?run⟩
  case run =>
    simp only [cc1__knn_kernel_eq_skeleton]; unfold cc1__knn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 1000000 in
/-- A MIDDLE POINT: the output buffer is handed back untouched; the first scratch buffer is only read; the second is
    taken at what the point before left and left with the pieces the store wrote. -/
noncomputable def kernelRun1_B (c : Dev nD) (i : grid1.Coords) (arg2 : Memref sig .tc .vmem S1024x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1024x1 .f32) (harg9 : arg9.IsWhole) (hc0 : ¬cond1_0 i) (hc1 : ¬cond1_1 i)
    (x0 : Vec F S1024x768 .f32) (x1 : Vec F S512x768 .f32) (x2 : Vec F S1x512 .f32) (x3 : Vec F S1024x512 .bf16) (x4 : Vec F S1x1024 .f32) (xs0 : Vec F S1024x512 .bf16) (xs1 : Vec F S1024x1 .f32) :
    { LS1 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__knn_kernel i arg2 harg2 arg3 harg3 arg4 harg4 arg5 harg5 arg6 harg6 arg7 harg7 arg8 harg8 arg9 harg9) K } := by
  refine ⟨?_, fun xi5 E K => ?run⟩
  case run =>
    simp only [cc1__knn_kernel_eq_skeleton]; unfold cc1__knn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; · ipureintro; exact harg8.read_unread _
      iexact HS0
    iexists _; iexact HS1

set_option maxHeartbeats 1000000 in
/-- THE LAST POINT OF A SWEEP: as a middle point, and the output buffer, taken at anything, is left with the pieces
    the final copy wrote. -/
noncomputable def kernelRun1_C (c : Dev nD) (i : grid1.Coords) (arg2 : Memref sig .tc .vmem S1024x768 .f32) (harg2 : arg2.IsWhole) (arg3 : Memref sig .tc .vmem S512x768 .f32) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1x1024 .f32) (harg6 : arg6.IsWhole) (arg7 : Memref sig .tc .vmem S1024x1 .f32) (harg7 : arg7.IsWhole) (arg8 : Memref sig .tc .vmem S1024x512 .bf16) (harg8 : arg8.IsWhole) (arg9 : Memref sig .tc .vmem S1024x1 .f32) (harg9 : arg9.IsWhole) (hc0 : ¬cond1_0 i) (hc1 : cond1_1 i)
    (x0 : Vec F S1024x768 .f32) (x1 : Vec F S512x768 .f32) (x2 : Vec F S1x512 .f32) (x3 : Vec F S1024x512 .bf16) (x4 : Vec F S1x1024 .f32) (xs0 : Vec F S1024x512 .bf16) (xs1 : Vec F S1024x1 .f32) :
    Σ' (L5 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc1__knn_kernel i arg2 harg2 arg3 harg3 arg4 harg4 arg5 harg5 arg6 harg6 arg7 harg7 arg8 harg8 arg9 harg9) K } := by
  refine ⟨?_, ?_, fun E K => ?run⟩
  case run =>
    simp only [cc1__knn_kernel_eq_skeleton]; unfold cc1__knn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; iexact HS1

end Cert.KernelIdeal.Hand

end
-- ==== Proof.KIReg1.lean ====
import proofs.«106562_j60000693125634_2_alg».proof.Proof.KIReg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second region, point by point: what the scratch buffers and the output buffer hold after each grid point,
    the region's proof data over that, and the body obligation. -/

variable (V : (c : Dev nD) → (b : Ref sig .tc) → Buf (Elt F) ((c : Thread nD τ).loc b))

/-- The run of the body at a first point of a sweep, on the point's staging buffers and blocks. -/
abbrev runA (c : Dev nD) (t : Fin cfg1.N) (h0 : t.val % 16 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => by have := (hcond1_1 t).mp h; omega) (iblk1 V c 0 t) (iblk1 V c 1 t) (iblk1 V c 2 t) (iblk1 V c 3 t) (iblk1 V c 4 t)
/-- The run at a middle point, over what the point before left in the two scratch buffers. -/
abbrev runB (c : Dev nD) (t : Fin cfg1.N) (h0 : ¬t.val % 16 = 0) (h1 : ¬t.val % 16 = 15) (xs0 : Vec F S1024x512 .bf16) (xs1 : Vec F S1024x1 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0 xs1
/-- The run at the last point of a sweep. -/
abbrev runC (c : Dev nD) (t : Fin cfg1.N) (h0 : ¬t.val % 16 = 0) (h1 : t.val % 16 = 15) (xs0 : Vec F S1024x512 .bf16) (xs1 : Vec F S1024x1 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) xs0 xs1

/-! ## The pieces cover the buffers they were stored into -/

theorem scoverA_0 (c : Dev nD) (t : Fin cfg1.N) (h0 : t.val % 16 = 0) (y : S1024x512.Idx) :
    ∃ pc ∈ (runA V c t h0).1, y ∈ pc.1.set :=
  View.cover_of_tiledL (runA V c t h0).1 S1024x512.size (by sl_kernel_rfl) y
theorem scoverA_1 (c : Dev nD) (t : Fin cfg1.N) (h0 : t.val % 16 = 0) (y : S1024x1.Idx) :
    ∃ pc ∈ (runA V c t h0).2.1, y ∈ pc.1.set :=
  View.cover_of_tiledL (runA V c t h0).2.1 S1024x1.size (by sl_kernel_rfl) y
theorem scoverB_1 (c : Dev nD) (t : Fin cfg1.N) (h0 : ¬t.val % 16 = 0) (h1 : ¬t.val % 16 = 15) (xs0 : Vec F S1024x512 .bf16) (xs1 : Vec F S1024x1 .f32) (y : S1024x1.Idx) :
    ∃ pc ∈ (runB V c t h0 h1 xs0 xs1).1, y ∈ pc.1.set :=
  View.cover_of_tiledL (runB V c t h0 h1 xs0 xs1).1 S1024x1.size (by sl_kernel_rfl) y
theorem coverC_5 (c : Dev nD) (t : Fin cfg1.N) (h0 : ¬t.val % 16 = 0) (h1 : t.val % 16 = 15) (xs0 : Vec F S1024x512 .bf16) (xs1 : Vec F S1024x1 .f32) (y : S1024x1.Idx) :
    ∃ pc ∈ (runC V c t h0 h1 xs0 xs1).1, y ∈ pc.1.set :=
  View.cover_of_tiledL (runC V c t h0 h1 xs0 xs1).1 S1024x1.size (by sl_kernel_rfl) y
theorem scoverC_1 (c : Dev nD) (t : Fin cfg1.N) (h0 : ¬t.val % 16 = 0) (h1 : t.val % 16 = 15) (xs0 : Vec F S1024x512 .bf16) (xs1 : Vec F S1024x1 .f32) (y : S1024x1.Idx) :
    ∃ pc ∈ (runC V c t h0 h1 xs0 xs1).2.1, y ∈ pc.1.set :=
  View.cover_of_tiledL (runC V c t h0 h1 xs0 xs1).2.1 S1024x1.size (by sl_kernel_rfl) y

/-! ## What each case leaves -/

/-- A placeholder for the output buffer at the points where the window is idle (never consulted). -/
def idle5 : Vec F S1024x1 .f32 := VO1_5.read (Elt F) VO1_5.junk
def sA0 (c : Dev nD) (t : Fin cfg1.N) (h0 : t.val % 16 = 0) : Vec F S1024x512 .bf16 :=
  VS1_0.read (Elt F) (VS1_0.writes (Elt F) VS1_0.junk (runA V c t h0).1)
def sA1 (c : Dev nD) (t : Fin cfg1.N) (h0 : t.val % 16 = 0) : Vec F S1024x1 .f32 :=
  VS1_1.read (Elt F) (VS1_1.writes (Elt F) VS1_1.junk (runA V c t h0).2.1)
def sB1 (c : Dev nD) (t : Fin cfg1.N) (h0 : ¬t.val % 16 = 0) (h1 : ¬t.val % 16 = 15) (xs0 : Vec F S1024x512 .bf16) (xs1 : Vec F S1024x1 .f32) : Vec F S1024x1 .f32 :=
  VS1_1.read (Elt F) (VS1_1.writes (Elt F) VS1_1.junk (runB V c t h0 h1 xs0 xs1).1)
def oC5 (c : Dev nD) (t : Fin cfg1.N) (h0 : ¬t.val % 16 = 0) (h1 : t.val % 16 = 15) (xs0 : Vec F S1024x512 .bf16) (xs1 : Vec F S1024x1 .f32) : Vec F S1024x1 .f32 :=
  VO1_5.read (Elt F) (VO1_5.writes (Elt F) VO1_5.junk (runC V c t h0 h1 xs0 xs1).1)
def sC1 (c : Dev nD) (t : Fin cfg1.N) (h0 : ¬t.val % 16 = 0) (h1 : t.val % 16 = 15) (xs0 : Vec F S1024x512 .bf16) (xs1 : Vec F S1024x1 .f32) : Vec F S1024x1 .f32 :=
  VS1_1.read (Elt F) (VS1_1.writes (Elt F) VS1_1.junk (runC V c t h0 h1 xs0 xs1).2.1)

/-- THE ACCUMULATION: after the body at position `n`, what the output buffer, the normalized-rows scratch and the
    running-sum scratch hold — by recursion on the position: a first point of a sweep starts afresh, every other
    point builds on what the point before left. -/
def outsAt1 (c : Dev nD) : (n : ℕ) → n < cfg1.N → Vec F S1024x1 .f32 × Vec F S1024x512 .bf16 × Vec F S1024x1 .f32
  | 0, hn => (idle5, sA0 V c ⟨0, hn⟩ (Nat.zero_mod _), sA1 V c ⟨0, hn⟩ (Nat.zero_mod _))
  | n + 1, hn =>
    if h0 : (n + 1) % 16 = 0 then
      (idle5, sA0 V c ⟨n + 1, hn⟩ h0, sA1 V c ⟨n + 1, hn⟩ h0)
    else if h1 : (n + 1) % 16 = 15 then
      (oC5 V c ⟨n + 1, hn⟩ h0 h1 (outsAt1 c n (Nat.lt_of_succ_lt hn)).2.1 (outsAt1 c n (Nat.lt_of_succ_lt hn)).2.2,
        (outsAt1 c n (Nat.lt_of_succ_lt hn)).2.1,
        sC1 V c ⟨n + 1, hn⟩ h0 h1 (outsAt1 c n (Nat.lt_of_succ_lt hn)).2.1 (outsAt1 c n (Nat.lt_of_succ_lt hn)).2.2)
    else
      (idle5, (outsAt1 c n (Nat.lt_of_succ_lt hn)).2.1,
        sB1 V c ⟨n + 1, hn⟩ h0 h1 (outsAt1 c n (Nat.lt_of_succ_lt hn)).2.1 (outsAt1 c n (Nat.lt_of_succ_lt hn)).2.2)

/-- What the point before `t` left (for a point that is not the very first). -/
abbrev prevAt (c : Dev nD) (t : Fin cfg1.N) := outsAt1 V c (t.val - 1) (Nat.lt_of_le_of_lt (Nat.sub_le _ _) t.isLt)

theorem outsAt1_A (c : Dev nD) (t : Fin cfg1.N) (h0 : t.val % 16 = 0) :
    outsAt1 V c t.val t.isLt = (idle5, sA0 V c t h0, sA1 V c t h0) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idle5, (prevAt V c t).2.1, sB1 V c t h0 h1 (prevAt V c t).2.1 (prevAt V c t).2.2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (oC5 V c t h0 h1 (prevAt V c t).2.1 (prevAt V c t).2.2, (prevAt V c t).2.1,
      sC1 V c t h0 h1 (prevAt V c t).2.1 (prevAt V c t).2.2) := by
  obtain ⟨n, hn⟩ := t
  cases n with
  | zero => exact absurd (Nat.zero_mod _) h0
  | succ n => exact (dif_neg h0).trans ((dif_pos h1).trans rfl)

/-- The region's invariant before position `n`: before the first point nothing is known of the scratch buffers;
    afterwards each holds what the point before left in it. The other region's staging buffers and the generator
    register ride along untouched. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2.1) ∗ owns (c : Thread nD τ) scM1_1 fullShare ((outsAt1 V c n hn).2.2)
      ∗ restOther (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2.1) ∗ owns (c : Thread nD τ) scM1_1 fullShare ((outsAt1 V c n hn).2.2)
      ∗ restOther (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.1) ∗ owns (c : Thread nD τ) scM1_1 fullShare ((outsAt1 V c (n - 1) (by omega)).2.2)
      ∗ restOther (F := F) c ∗ (∃ r, prngReg c r)) := by
  cases n with
  | zero => exact absurd rfl hz
  | succ n => rfl

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

set_option maxHeartbeats 4800000 in
/-- The body at any point: the closed forms say which case the point is in; the invariant hands the body the scratch
    buffers (at anything before the very first point, else at what the point before left) and takes them back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 64 := lt_of_lt_of_eq t.isLt (show cfg1.N = 64 from N_1)
  by_cases h0 : t.val % 16 = 0
  · have h1 : ¬t.val % 16 = 15 := by omega
    rw [Dat.leavesExact_idle (dat1 V c) 5 t (idleAt1_5 t (fun h => h1 ((hcond1_1 t).mp h))) (noFlush1_5 t (fun h => h1 ((hcond1_1 t).mp h)))]
    rw [outsAt1_A V c t h0]
    unfold sA0 sA1; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_split (F := F) c) $$ HΦ
      icases HΦ' with ⟨HS0, HS1, Hr, Hg⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply ((runA V c t h0).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HS0 HS1 Hr Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold oC5 sC1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply ((runC V c t h0 h1 _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%es1, HS1⟩⟩
      isplitl [HS0 HS1 Hr Hg]
      · isplitl [HS0]; · iexact HS0
        isplitl [HS1]
        · unfold owns; iexists _; isplitr
          swap; · iexact HS1
          ipureintro; exact View.read_writes_of_cover _ _ _ _ _ (scoverC_1 V c t h0 h1 _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sB1; (try dsimp only)
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩⟩
      iapply ((runB V c t h0 h1 _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%es1, HS1⟩⟩
      isplitl [HS0 HS1 Hr Hg]
      · isplitl [HS0]; · iexact HS0
        isplitl [HS1]
        · unfold owns; iexists _; isplitr
          swap; · iexact HS1
          ipureintro; exact View.read_writes_of_cover _ _ _ _ _ (scoverB_1 V c t h0 h1 _ _)
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the second region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Forgetting what the scratch buffers hold gives the untracked invariant back. -/
theorem PhiS1_forget (c : Dev nD) (s0 : Vec F S1024x512 .bf16) (s1 : Vec F S1024x1 .f32) :
    (iprop(owns (c : Thread nD τ) scM1_0 fullShare s0 ∗ owns (c : Thread nD τ) scM1_1 fullShare s1 ∗ restOther (F := F) c ∗ (∃ r, prngReg c r)) : sProp 𝕄)
      ⊢ Pipeline.ΦA spec1 c := by
  have h : (iprop(owns (c : Thread nD τ) scM1_0 fullShare s0 ∗ owns (c : Thread nD τ) scM1_1 fullShare s1 ∗ restOther (F := F) c ∗ (∃ r, prngReg c r)) : sProp 𝕄)
      ⊢ iprop((∃ d, owns (c : Thread nD τ) scM1_0 fullShare d) ∗ (∃ d, owns (c : Thread nD τ) scM1_1 fullShare d) ∗ restOther (F := F) c ∗ (∃ r, prngReg c r)) := by
    iintro ⟨HS0, HS1, Hr, Hg⟩
    isplitl [HS0]; · iexists _; iexact HS0
    isplitl [HS1]; · iexists _; iexact HS1
    isplitl [Hr]; · iexact Hr
    iexact Hg
  exact h.trans (PhiA1_join (F := F) c)

/-- After the last point the invariant gives the scoped buffers back, their contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega)]
  exact PhiS1_forget c _ _

end Cert.KernelIdeal.Hand

end
-- ==== Proof.KIRun.lean ====
import proofs.«106562_j60000693125634_2_alg».proof.Proof.KIReg0
import proofs.«106562_j60000693125634_2_alg».proof.Proof.KIReg1
import proofs.«106562_j60000693125634_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run: the program is a stretch of host operations, the first region, a second stretch, the second
    region, a last stretch. The contents of the core's buffers at each boundary are a fold from the launch memory;
    the run ends with every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered at `W3`, left at `W4`; its invariant tracks the scratch buffers in between. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## The arguments end as launched -/

/-- No host stretch writes an argument; a region reads it through an input window or not at all: the fold at an
    argument's buffer walks back to the launch memory. -/
theorem W1_arg (c : Dev nD) (b : Ref sig .tc) (h : b ∉ hostOps0_W) : W1 m ρ c (Proc.devRef .tc b) = m ((c : Thread nD τ).loc b) :=
  StableHlo.after_of_writes_sub hostOps0 _ hostOps0_writes h
theorem W3_of (c : Dev nD) (b : Ref sig .tc) (h : b ∉ hostOps1_W) : W3 m ρ c (Proc.devRef .tc b) = W2 m ρ c (Proc.devRef .tc b) :=
  StableHlo.after_of_writes_sub hostOps1 _ hostOps1_writes h
theorem W5_of (c : Dev nD) (b : Ref sig .tc) (h : b ∉ hostOps2_W) : W5 m ρ c (Proc.devRef .tc b) = W4 m ρ c (Proc.devRef .tc b) :=
  StableHlo.after_of_writes_sub hostOps2 _ hostOps2_writes h
/-- An input window's array is left as the region found it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

theorem W5_main_arg0 (c : Dev nD) : W5 m ρ c (Proc.devRef .tc main_arg0) = m ((c : Thread nD τ).loc main_arg0) :=
  (W5_of m ρ c main_arg0 (by decide)).trans <| (W4_in m ρ c 0 rfl).trans <| (W3_of m ρ c main_arg0 (by decide)).trans <|
    (W2_of_ne m ρ c main_arg0 (by decide)).trans <| W1_arg m ρ c main_arg0 (by decide)
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <| (W3_of m ρ c main_arg1 (by decide)).trans <|
    (W2_in m ρ c 0 rfl).trans <| W1_arg m ρ c main_arg1 (by decide)
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <| (W3_of m ρ c main_arg2 (by decide)).trans <|
    (W2_of_ne m ρ c main_arg2 (by decide)).trans <| W1_arg m ρ c main_arg2 (by decide)
theorem W5_main_arg3 (c : Dev nD) : W5 m ρ c (Proc.devRef .tc main_arg3) = m ((c : Thread nD τ).loc main_arg3) :=
  (W5_of m ρ c main_arg3 (by decide)).trans <| (W4_in m ρ c 1 rfl).trans <| (W3_of m ρ c main_arg3 (by decide)).trans <|
    (W2_in m ρ c 1 rfl).trans <| W1_arg m ρ c main_arg3 (by decide)
theorem W5_main_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| W1_arg m ρ c main_arg4 (by decide)
theorem W5_main_arg5 (c : Dev nD) : W5 m ρ c (Proc.devRef .tc main_arg5) = m ((c : Thread nD τ).loc main_arg5) :=
  (W5_of m ρ c main_arg5 (by decide)).trans <| (W4_of_ne m ρ c main_arg5 (by decide)).trans <| (W3_of m ρ c main_arg5 (by decide)).trans <|
    (W2_of_ne m ρ c main_arg5 (by decide)).trans <| W1_arg m ρ c main_arg5 (by decide)
theorem W5_main_arg6 (c : Dev nD) : W5 m ρ c (Proc.devRef .tc main_arg6) = m ((c : Thread nD τ).loc main_arg6) :=
  (W5_of m ρ c main_arg6 (by decide)).trans <| (W4_of_ne m ρ c main_arg6 (by decide)).trans <| (W3_of m ρ c main_arg6 (by decide)).trans <|
    (W2_of_ne m ρ c main_arg6 (by decide)).trans <| W1_arg m ρ c main_arg6 (by decide)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩) (run_all m ρ)

end Cert.KernelIdeal.Hand

end
-- ==== Proof.KIBlocks.lean ====
import proofs.«106562_j60000693125634_2_alg».proof.Proof.KIReg0
import proofs.«106562_j60000693125634_2_alg».proof.Proof.KIReg1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Where each window's block sits in its array

The first region's grid has 16 points; point `t` takes rows `1024 t … 1024 t + 1023` of the exemplars and writes the
same rows of the normalized exemplars; the weights and the bias are taken whole. The second region's grid has
4 × 16 points; point `t = 16 i + j` takes query rows `1024 i …`, normalized exemplar rows `1024 j …`, the ratings'
columns `1024 j …`, and (at `j = 15`) writes rows `1024 i …` of the result. -/

open Idealize.ShloMosaic.ValueIdx

variable (V : (c : Dev nD) → (b : Ref sig .tc) → Buf (Elt F) ((c : Thread nD τ).loc b))

theorem hz : (![0, 0] : Fin 2 → Nat) = fun _ => 0 := funext fun a => by fin_cases a <;> rfl

/-- The first region's index maps, decided over its grid. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The second region's index maps, decided over its grid. -/
theorem idx1 : ∀ t : Fin cfg1.N, win1_0.index t (0 : Fin 2) = t.val / 16 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val % 16 ∧ win1_3.index t (1 : Fin 2) = 0
    ∧ win1_4.index t (0 : Fin 2) = 0 ∧ win1_4.index t (1 : Fin 2) = t.val % 16
    ∧ win1_5.index t (0 : Fin 2) = t.val / 16 ∧ win1_5.index t (1 : Fin 2) = 0 :=
  (by decide +kernel : ∀ t : Fin grid1.N, _)

theorem lt16 (t : Fin cfg0.N) : t.val < 16 := lt_of_lt_of_eq t.isLt (show cfg0.N = 16 from N_0)
theorem lt64 (t : Fin cfg1.N) : t.val < 64 := lt_of_lt_of_eq t.isLt (show cfg1.N = 64 from N_1)

/-- Row `p` of block `q` of 1024 rows, as a row of an array of `n` rows. -/
abbrev rowOf {n : ℕ} (q : ℕ) (p : Fin 1024) (h : 1024 * q + 1024 ≤ n) : Fin n := ⟨1024 * q + p.val, by have := p.isLt; omega⟩

/-! ## The first region's input blocks -/

theorem iblk0_0_apply (c : Dev nD) (t : Fin cfg0.N) (p : Fin 1024) (f : Fin 768) :
    (iblk0 V c 0 t : Vec F S1024x768 .f32) (ix2 p f)
      = (V c main_arg1 : S16384x768.Idx → Elt F .f32) (ix2 (rowOf (n := 16384) t.val p (by have := lt16 t; omega)) f) := by
  obtain ⟨e0, e1, -⟩ := idx0 t
  unfold iblk0
  rw [View.read_apply]
  show V c main_arg1 _ = V c main_arg1 _
  congr 1
  funext a
  apply Fin.ext
  match a with
  | ⟨0, _⟩ => show win0_0.index t 0 * 1024 + 1 * p.val = 1024 * t.val + p.val; rw [e0]; omega
  | ⟨1, _⟩ => show win0_0.index t 1 * 768 + 1 * f.val = f.val; rw [e1]; omega

theorem iblk0_1_apply (c : Dev nD) (t : Fin cfg0.N) (e : Fin 512) (f : Fin 768) :
    (iblk0 V c 1 t : Vec F S512x768 .f32) (ix2 e f) = (V c main_arg3 : S512x768.Idx → Elt F .f32) (ix2 e f) := by
  obtain ⟨-, -, e0, e1, -⟩ := idx0 t
  unfold iblk0
  rw [View.read_apply]
  show V c main_arg3 _ = V c main_arg3 _
  congr 1
  funext a
  apply Fin.ext
  match a with
  | ⟨0, _⟩ => show win0_1.index t 0 * 512 + 1 * e.val = e.val; rw [e0]; omega
  | ⟨1, _⟩ => show win0_1.index t 1 * 768 + 1 * f.val = f.val; rw [e1]; omega

theorem iblk0_2_apply (c : Dev nD) (t : Fin cfg0.N) (u : Fin 1) (e : Fin 512) :
    (iblk0 V c 2 t : Vec F S1x512 .f32) (ix2 u e) = (V c main_v0 : S1x512.Idx → Elt F .f32) (ix2 u e) := by
  obtain ⟨-, -, -, -, e0, e1, -⟩ := idx0 t
  unfold iblk0
  rw [View.read_apply]
  show V c main_v0 _ = V c main_v0 _
  congr 1
  funext a
  apply Fin.ext
  match a with
  | ⟨0, _⟩ => show win0_2.index t 0 * 1 + 1 * u.val = u.val; rw [e0]; omega
  | ⟨1, _⟩ => show win0_2.index t 1 * 512 + 1 * e.val = e.val; rw [e1]; omega

/-! ## The second region's input blocks -/

theorem iblk1_0_apply (c : Dev nD) (t : Fin cfg1.N) (p : Fin 1024) (f : Fin 768) :
    (iblk1 V c 0 t : Vec F S1024x768 .f32) (ix2 p f)
      = (V c main_arg0 : S4096x768.Idx → Elt F .f32) (ix2 (rowOf (n := 4096) (t.val / 16) p (by have := lt64 t; omega)) f) := by
  obtain ⟨e0, e1, -⟩ := idx1 t
  unfold iblk1
  rw [View.read_apply]
  show V c main_arg0 _ = V c main_arg0 _
  congr 1
  funext a
  apply Fin.ext
  match a with
  | ⟨0, _⟩ => show win1_0.index t 0 * 1024 + 1 * p.val = 1024 * (t.val / 16) + p.val; rw [e0]; omega
  | ⟨1, _⟩ => show win1_0.index t 1 * 768 + 1 * f.val = f.val; rw [e1]; omega

theorem iblk1_1_apply (c : Dev nD) (t : Fin cfg1.N) (e : Fin 512) (f : Fin 768) :
    (iblk1 V c 1 t : Vec F S512x768 .f32) (ix2 e f) = (V c main_arg3 : S512x768.Idx → Elt F .f32) (ix2 e f) := by
  obtain ⟨-, -, e0, e1, -⟩ := idx1 t
  unfold iblk1
  rw [View.read_apply]
  show V c main_arg3 _ = V c main_arg3 _
  congr 1
  funext a
  apply Fin.ext
  match a with
  | ⟨0, _⟩ => show win1_1.index t 0 * 512 + 1 * e.val = e.val; rw [e0]; omega
  | ⟨1, _⟩ => show win1_1.index t 1 * 768 + 1 * f.val = f.val; rw [e1]; omega

theorem iblk1_2_apply (c : Dev nD) (t : Fin cfg1.N) (u : Fin 1) (e : Fin 512) :
    (iblk1 V c 2 t : Vec F S1x512 .f32) (ix2 u e) = (V c main_v7 : S1x512.Idx → Elt F .f32) (ix2 u e) := by
  obtain ⟨-, -, -, -, e0, e1, -⟩ := idx1 t
  unfold iblk1
  rw [View.read_apply]
  show V c main_v7 _ = V c main_v7 _
  congr 1
  funext a
  apply Fin.ext
  match a with
  | ⟨0, _⟩ => show win1_2.index t 0 * 1 + 1 * u.val = u.val; rw [e0]; omega
  | ⟨1, _⟩ => show win1_2.index t 1 * 512 + 1 * e.val = e.val; rw [e1]; omega

theorem iblk1_3_apply (c : Dev nD) (t : Fin cfg1.N) (k : Fin 1024) (e : Fin 512) :
    (iblk1 V c 3 t : Vec F S1024x512 .bf16) (ix2 k e)
      = (V c main_v1 : S16384x512.Idx → Elt F .bf16) (ix2 (rowOf (n := 16384) (t.val % 16) k (by omega)) e) := by
  obtain ⟨-, -, -, -, -, -, e0, e1, -⟩ := idx1 t
  unfold iblk1
  rw [View.read_apply]
  show V c main_v1 _ = V c main_v1 _
  congr 1
  funext a
  apply Fin.ext
  match a with
  | ⟨0, _⟩ => show win1_3.index t 0 * 1024 + 1 * k.val = 1024 * (t.val % 16) + k.val; rw [e0]; omega
  | ⟨1, _⟩ => show win1_3.index t 1 * 512 + 1 * e.val = e.val; rw [e1]; omega

theorem iblk1_4_apply (c : Dev nD) (t : Fin cfg1.N) (u : Fin 1) (k : Fin 1024) :
    (iblk1 V c 4 t : Vec F S1x1024 .f32) (ix2 u k)
      = (V c main_v6 : S1x16384.Idx → Elt F .f32) (ix2 u (rowOf (n := 16384) (t.val % 16) k (by omega))) := by
  obtain ⟨-, -, -, -, -, -, -, -, e0, e1, -⟩ := idx1 t
  unfold iblk1
  rw [View.read_apply]
  show V c main_v6 _ = V c main_v6 _
  congr 1
  funext a
  apply Fin.ext
  match a with
  | ⟨0, _⟩ => show win1_4.index t 0 * 1 + 1 * u.val = u.val; rw [e0]; omega
  | ⟨1, _⟩ => show win1_4.index t 1 * 1024 + 1 * k.val = 1024 * (t.val % 16) + k.val; rw [e1]; omega

/-! ## The output blocks -/

/-- Entry `(p, e)` of the first region's output block at point `t` is entry `(1024 t + p, e)` of the array. -/
theorem emb0_3 (t : Fin cfg0.N) (p : Fin 1024) (e : Fin 512) :
    ((cfg0.win 3).blk t).view.emb (ix2 p e) = (ix2 (rowOf (n := 16384) t.val p (by have := lt16 t; omega)) e : S16384x512.Idx) := by
  obtain ⟨-, -, -, -, -, -, e0, e1⟩ := idx0 t
  funext a
  apply Fin.ext
  match a with
  | ⟨0, _⟩ => show win0_3.index t 0 * 1024 + 1 * p.val = 1024 * t.val + p.val; rw [e0]; omega
  | ⟨1, _⟩ => show win0_3.index t 1 * 512 + 1 * e.val = e.val; rw [e1]; omega

theorem mem_blk0_3 (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every entry of the normalized exemplars is written back by the point of its row block. -/
theorem cover0_3' (i : S16384x512.Idx) : ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 16 := N_0
  refine ⟨⟨(i 0).val / 1024, by omega⟩, flush0_3 _, ?_⟩
  rw [mem_blk0_3]
  obtain ⟨-, -, -, -, -, -, e0, e1⟩ := idx0 ⟨(i 0).val / 1024, by omega⟩
  intro a
  match a with
  | ⟨0, _⟩ => show win0_3.index _ (0 : Fin 2) * 1024 ≤ (i 0).val ∧ (i 0).val < win0_3.index _ (0 : Fin 2) * 1024 + 1024; rw [e0]; dsimp only; omega
  | ⟨1, _⟩ => show win0_3.index _ (1 : Fin 2) * 512 ≤ (i 1).val ∧ (i 1).val < win0_3.index _ (1 : Fin 2) * 512 + 512; rw [e1]; omega

/-- Entry `(p, 0)` of the second region's output block at point `t` is entry `(1024 (t / 16) + p, 0)` of the array. -/
theorem emb1_5 (t : Fin cfg1.N) (p : Fin 1024) (u : Fin 1) :
    ((cfg1.win 5).blk t).view.emb (ix2 p u) = (ix2 (rowOf (n := 4096) (t.val / 16) p (by have := lt64 t; omega)) u : S4096x1.Idx) := by
  obtain ⟨-, -, -, -, -, -, -, -, -, -, e0, e1⟩ := idx1 t
  funext a
  apply Fin.ext
  match a with
  | ⟨0, _⟩ => show win1_5.index t 0 * 1024 + 1 * p.val = 1024 * (t.val / 16) + p.val; rw [e0]; omega
  | ⟨1, _⟩ => show win1_5.index t 1 * 1 + 1 * u.val = u.val; rw [e1]; omega

theorem mem_blk1_5 (t : Fin cfg1.N) (i : S4096x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v8).slice (win1_5.rect t)).set ↔ _
  rw [View.set_slice_whole, Rect.mem_set_unit]
  exact Iff.rfl

/-- Every entry of the result is written back by the last point of its row block's sweep. -/
theorem cover1_5' (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 64 := N_1
  have ht : 16 * ((i 0).val / 1024) + 15 < cfg1.N := by omega
  refine ⟨⟨16 * ((i 0).val / 1024) + 15, ht⟩, (flush1_5 _).mpr (by show (16 * ((i 0).val / 1024) + 15) % 16 = 15; omega), ?_⟩
  rw [mem_blk1_5]
  obtain ⟨-, -, -, -, -, -, -, -, -, -, e0, e1⟩ := idx1 ⟨16 * ((i 0).val / 1024) + 15, ht⟩
  intro a
  match a with
  | ⟨0, _⟩ => show win1_5.index _ (0 : Fin 2) * 1024 ≤ (i 0).val ∧ (i 0).val < win1_5.index _ (0 : Fin 2) * 1024 + 1024; rw [e0]; dsimp only; omega
  | ⟨1, _⟩ => show win1_5.index _ (1 : Fin 2) * 1 ≤ (i 1).val ∧ (i 1).val < win1_5.index _ (1 : Fin 2) * 1 + 1; rw [e1]; omega

end Cert.KernelIdeal.Hand

end
-- ==== Proof.LibKeepdims.lean ====
import Idealize.ShloMosaic.Lib.Pipeline.Value
import Idealize.ShloMosaic.Lib.ValueIdx

/-!
# A column vector's two layout steps read at an index

A row-wise sum that keeps its axis (`sum (…, axis = -1, keepdims = True)`) reaches a kernel as a vector `[a]`
re-laid as a column `[a, 1]` and later broadcast along the rows to `[a, b]`. Both steps read one entry of the
operand: entry `(i, 0)` of the column is entry `i` of the vector, and entry `(i, c)` of the broadcast is entry
`(i, 0)` of the column. (The companions for a leading unit axis, `[a] → [1, a]` and `[1, b] → [a, b]`, are in the
library's layout file; these are the trailing-unit-axis forms, in the same style.)
-/

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
import Idealize.ShloMosaic.PureOps.Ideal
import Idealize.ShloMosaic.PureOps.Ideal.Laws
import Idealize.ShloMosaic.Lib.ValueIdx

/-!
# What both programs compute, index by index, on the extended reals

Rows are projected by a weight matrix and shifted by a bias, then divided by their Euclidean norm (floored at a small
constant). A query row and an exemplar row are compared by the inner product of their unit rows; the comparison is
cubed, weighted by the exemplar's rating re-centred from [0, 1] to [-1, 1], and summed over all exemplars; an affine
map of that sum is the first result.
-/

noncomputable section

namespace Cert.Spec

open Idealize.ShloMosaic

/-- The floor of the norm: the one small constant both programs print. -/
abbrev epsI : EReal := Ideal.ofBits .f32 0x2B8CBCCC#32

/-- Entry `e` of the projection of row `b`: the row against row `e` of the weights, plus the bias. -/
def proj {n : ℕ} (A : Fin n → Fin 768 → EReal) (gw : Fin 512 → Fin 768 → EReal) (gb : Fin 512 → EReal) (b : Fin n) (e : Fin 512) : EReal :=
  (∑ f : Fin 768, A b f * gw e f) + gb e

/-- The norm of the projected row, floored. -/
def rnorm {n : ℕ} (A : Fin n → Fin 768 → EReal) (gw : Fin 512 → Fin 768 → EReal) (gb : Fin 512 → EReal) (b : Fin n) : EReal :=
  max (Ideal.sqrt (∑ e : Fin 512, proj A gw gb b e * proj A gw gb b e)) epsI

/-- The projected row divided by its floored norm. -/
def unitRow {n : ℕ} (A : Fin n → Fin 768 → EReal) (gw : Fin 512 → Fin 768 → EReal) (gb : Fin 512 → EReal) (b : Fin n) (e : Fin 512) : EReal :=
  Ideal.div (proj A gw gb b e) (rnorm A gw gb b)

/-- The cube of the inner product of two unit rows `u` and `v`, weighted by `w`. -/
def term (u v : Fin 512 → EReal) (w : EReal) : EReal :=
  ((∑ e : Fin 512, u e * v e) * (∑ e : Fin 512, u e * v e) * (∑ e : Fin 512, u e * v e)) * w

/-- An exemplar's rating re-centred: twice the rating, minus one. -/
def wgt (r : Fin 16384 → EReal) (n : Fin 16384) : EReal :=
  r n * Ideal.ofBits .f32 0x40000000#32 - Ideal.ofBits .f32 0x3F800000#32

/-- The weighted sum over all exemplars, for query row `b`. -/
def echo (X : Fin 4096 → Fin 768 → EReal) (D : Fin 16384 → Fin 768 → EReal) (r : Fin 16384 → EReal)
    (gw : Fin 512 → Fin 768 → EReal) (gb : Fin 512 → EReal) (b : Fin 4096) : EReal :=
  ∑ n : Fin 16384, term (unitRow X gw gb b) (unitRow D gw gb n) (wgt r n)

/-- The first result at row `b`. -/
def logit (X : Fin 4096 → Fin 768 → EReal) (D : Fin 16384 → Fin 768 → EReal) (r : Fin 16384 → EReal)
    (gw : Fin 512 → Fin 768 → EReal) (gb : Fin 512 → EReal) (hw hb : EReal) (b : Fin 4096) : EReal :=
  echo X D r gw gb b * hw + hb

end Cert.Spec

end
-- ==== Proof.PaySide.lean ====
import proofs.«106562_j60000693125634_2_alg».proof.Proof.Gen.KernelIdeal.Skeleton
import proofs.«106562_j60000693125634_2_alg».proof.Proof.LibKeepdims
import proofs.«106562_j60000693125634_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The kernel's pure payloads read at an index, on the extended reals

Each payload is a chain of whole-array operations. Read at one index, the pointwise operations act on the entries
there; a product of two arrays contracted along their second axes is the inner product of a row of each; a sum along
the lanes is the sum of a row; a column `[a, 1]` made from a vector, or spread over the lanes, reads one entry. Put
together: the first two payloads are the projected row divided by its floored norm (`Cert.Spec.unitRow`), the third is
the zero column, and the last adds to the running column the sum, over the rows of the second operand, of the cubed and
weighted inner products (`Cert.Spec.term`).
-/

noncomputable section

namespace Cert.PaySide

open Idealize.ShloMosaic Idealize.ShloMosaic.ValueIdx Cert.KernelIdeal Cert.KernelIdeal.Gen

/-- The projection product (both operands contracted along their second axis) into the zero accumulator, read at `(p, e)`:
    row `p` of the left operand against row `e` of the right one. -/
theorem matmul_proj_apply (a : FVec Ideal S1024x768 .bf16) (b : FVec Ideal S512x768 .bf16) (p : Fin 1024) (e : Fin 512) :
    matmul dot_S1024x768_S512x768_S1024x512_1_1_0_0_n_n none a b (constant (F := Ideal) S1024x512 .f32 0x00000000#32) (ix2 p e)
      = ∑ f : Fin 768, a (ix2 p f) * b (ix2 e f) := by
  show FloatOps.matmul dot_S1024x768_S512x768_S1024x512_1_1_0_0_n_n none a b (constant (F := Ideal) S1024x512 .f32 0x00000000#32) (ix2 p e) = _
  rw [Ideal.matmul_constant_zero_apply, ← Equiv.sum_comp (ValueIdx.contrEquiv1 dot_S1024x768_S512x768_S1024x512_1_1_0_0_n_n 768 rfl rfl).symm]
  refine Finset.sum_congr rfl fun k _ => ?_
  have hk := ValueIdx.contrEquiv1_symm_val dot_S1024x768_S512x768_S1024x512_1_1_0_0_n_n 768 rfl rfl k
  have el : dot_S1024x768_S512x768_S1024x512_1_1_0_0_n_n.lhsIdx (ix2 p e) ((ValueIdx.contrEquiv1 dot_S1024x768_S512x768_S1024x512_1_1_0_0_n_n 768 rfl rfl).symm k) = ix2 p k := funext fun ax => Fin.ext (by
    match ax with
    | ⟨0, _⟩ =>
      show (dot_S1024x768_S512x768_S1024x512_1_1_0_0_n_n.lhsIdx (ix2 p e) _ 0).val = p.val
      unfold DotDims.lhsIdx
      rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
      rfl
    | ⟨1, _⟩ => exact (dot_S1024x768_S512x768_S1024x512_1_1_0_0_n_n.lhsIdx_val_of_single rfl (ix2 p e) _).trans hk)
  have er : dot_S1024x768_S512x768_S1024x512_1_1_0_0_n_n.rhsIdx (ix2 p e) ((ValueIdx.contrEquiv1 dot_S1024x768_S512x768_S1024x512_1_1_0_0_n_n 768 rfl rfl).symm k) = ix2 e k := funext fun ax => Fin.ext (by
    match ax with
    | ⟨0, _⟩ =>
      show (dot_S1024x768_S512x768_S1024x512_1_1_0_0_n_n.rhsIdx (ix2 p e) _ 0).val = e.val
      unfold DotDims.rhsIdx
      rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
      rfl
    | ⟨1, _⟩ => exact (dot_S1024x768_S512x768_S1024x512_1_1_0_0_n_n.rhsIdx_val_of_single rfl (ix2 p e) _).trans hk)
  rw [el, er]

/-- The product of two stacks of rows (both contracted along their second axis) into the zero accumulator, read at
    `(p, k)`: the inner product of row `p` of the left operand and row `k` of the right one. -/
theorem matmul_rows_apply (a : FVec Ideal S1024x512 .bf16) (b : FVec Ideal S1024x512 .bf16) (p : Fin 1024) (e : Fin 1024) :
    matmul dot_S1024x512_S1024x512_S1024x1024_1_1_0_0_n_n none a b (constant (F := Ideal) S1024x1024 .f32 0x00000000#32) (ix2 p e)
      = ∑ f : Fin 512, a (ix2 p f) * b (ix2 e f) := by
  show FloatOps.matmul dot_S1024x512_S1024x512_S1024x1024_1_1_0_0_n_n none a b (constant (F := Ideal) S1024x1024 .f32 0x00000000#32) (ix2 p e) = _
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p e) ((ValueIdx.contrEquiv1 dot_S1024x512_S1024x512_S1024x1024_1_1_0_0_n_n 512 rfl rfl).symm k) = ix2 p k := funext fun ax => Fin.ext (by
    match ax with
    | ⟨0, _⟩ =>
      show (dot_S1024x512_S1024x512_S1024x1024_1_1_0_0_n_n.lhsIdx (ix2 p e) _ 0).val = p.val
      unfold DotDims.lhsIdx
      rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
      rfl
    | ⟨1, _⟩ => exact (dot_S1024x512_S1024x512_S1024x1024_1_1_0_0_n_n.lhsIdx_val_of_single rfl (ix2 p e) _).trans hk)
  have er : dot_S1024x512_S1024x512_S1024x1024_1_1_0_0_n_n.rhsIdx (ix2 p e) ((ValueIdx.contrEquiv1 dot_S1024x512_S1024x512_S1024x1024_1_1_0_0_n_n 512 rfl rfl).symm k) = ix2 e k := funext fun ax => Fin.ext (by
    match ax with
    | ⟨0, _⟩ =>
      show (dot_S1024x512_S1024x512_S1024x1024_1_1_0_0_n_n.rhsIdx (ix2 p e) _ 0).val = e.val
      unfold DotDims.rhsIdx
      rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
      rfl
    | ⟨1, _⟩ => exact (dot_S1024x512_S1024x512_S1024x1024_1_1_0_0_n_n.rhsIdx_val_of_single rfl (ix2 p e) _).trans hk)
  rw [el, er]

/-- A sum along the lanes of a `[1024, 512]` array, read at row `r`: the sum of that row's entries. -/
theorem laneSum512_apply (src : FVec Ideal S1024x512 .f32) (h : S1024x512.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ e : Fin 512, src (ix2 r e) := by
  refine (Ideal.multiReduction_add_single src 0x00000000#32 h hφ hacc (ix1 r)).trans ?_
  exact Finset.sum_congr rfl fun k _ => congrArg src (funext fun ax => Fin.ext (by
    match ax with
    | ⟨0, _⟩ => rfl
    | ⟨1, _⟩ => rfl))

/-- A sum along the lanes of a `[1024, 1024]` array, read at row `r`: the sum of that row's entries. -/
theorem laneSum1024_apply (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ e : Fin 1024, src (ix2 r e) := by
  refine (Ideal.multiReduction_add_single src 0x00000000#32 h hφ hacc (ix1 r)).trans ?_
  exact Finset.sum_congr rfl fun k _ => congrArg src (funext fun ax => Fin.ext (by
    match ax with
    | ⟨0, _⟩ => rfl
    | ⟨1, _⟩ => rfl))

/-- The projected array — the product plus the bias spread over the rows — at `(p, e)`. -/
theorem projected_apply (x0 : FVec Ideal S1024x768 .f32) (x1 : FVec Ideal S512x768 .f32) (x2 : FVec Ideal S1x512 .f32)
    (hb : FTy.bits .bf16 < FTy.bits .f32) (hbc : S1x512.Broadcasts S1024x512) (p : Fin 1024) (e : Fin 512) :
    addf (matmul dot_S1024x768_S512x768_S1024x512_1_1_0_0_n_n none (truncf .bf16 x0 hb) (truncf .bf16 x1 hb) (constant (F := Ideal) S1024x512 .f32 0x00000000#32))
        (broadcastTo S1024x512 x2 hbc) (ix2 p e)
      = Cert.Spec.proj (fun p f => x0 (ix2 p f)) (fun e f => x1 (ix2 e f)) (fun e => x2 (ix2 (0 : Fin 1) e)) p e := by
  rw [addf_apply, matmul_proj_apply, broadcastTo_1b_ab_apply]
  rfl

/-- A `[1024, 512]` array divided, row by row, by the row's Euclidean norm floored at the small constant. -/
theorem normalize_apply (V : FVec Ideal S1024x512 .f32) (h : S1024x512.Reduces [1] S1024) (hφ : FKind.Formats .f32)
    (hacc : (0x00000000#32 : BitVec 32) = 0x00000000#32) (hsc : S1024.ShapeCasts S1024x1) (hbc : S1024x1.Broadcasts S1024x512)
    (p : Fin 1024) (e : Fin 512) :
    divf V (broadcastTo S1024x512 (maximumf (sqrt (shapeCast S1024x1 (multiReduction (F := Ideal) .add [1] S1024 (mulf V V) 0x00000000#32 h hφ hacc) hsc))
        (broadcast S1024x1 (FloatOps.ofBits (F := Ideal) .f32 0x2B8CBCCC#32))) hbc) (ix2 p e)
      = Ideal.div (V (ix2 p e)) (max (Ideal.sqrt (∑ e' : Fin 512, V (ix2 p e') * V (ix2 p e'))) Cert.Spec.epsI) := by
  rw [divf_apply, broadcastTo_a1_ab_apply, maximumf_apply]
  show Ideal.div _ (max (Ideal.sqrt (shapeCast S1024x1 _ hsc (ix2 p (0 : Fin 1)))) _) = _
  rw [shapeCast_a_a1_apply, laneSum512_apply]
  rfl

/-- The first kernel's payload at `(p, e)`: entry `e` of the projected row `p` divided by that row's floored norm. -/
theorem k0_pay1_apply (x0 : Vec Ideal S1024x768 .f32) (x1 : Vec Ideal S512x768 .f32) (x2 : Vec Ideal S1x512 .f32) (p : Fin 1024) (e : Fin 512) :
    k0_pay1 (F := Ideal) x0 x1 x2 (ix2 p e) = Cert.Spec.unitRow (fun p f => x0 (ix2 p f)) (fun e f => x1 (ix2 e f)) (fun e => x2 (ix2 (0 : Fin 1) e)) p e := by
  unfold k0_pay1
  simp only [shapeCast_self]
  rw [truncf_apply]
  refine (normalize_apply _ _ _ _ _ _ p e).trans ?_
  unfold Cert.Spec.unitRow Cert.Spec.rnorm
  rw [projected_apply]
  refine congrArg (Ideal.div _) (congrArg (max · Cert.Spec.epsI) (congrArg Ideal.sqrt (Finset.sum_congr rfl fun e' _ => ?_)))
  rw [projected_apply]

/-- The second kernel's first payload is the same array (re-laid in its own shape): the unit row again. -/
theorem k1_pay1_apply (x0 : Vec Ideal S1024x768 .f32) (x1 : Vec Ideal S512x768 .f32) (x2 : Vec Ideal S1x512 .f32) (p : Fin 1024) (e : Fin 512) :
    k1_pay1 (F := Ideal) x0 x1 x2 (ix2 p e) = Cert.Spec.unitRow (fun p f => x0 (ix2 p f)) (fun e f => x1 (ix2 e f)) (fun e => x2 (ix2 (0 : Fin 1) e)) p e := by
  unfold k1_pay1
  simp only [shapeCast_self]
  rw [truncf_apply]
  refine (normalize_apply _ _ _ _ _ _ p e).trans ?_
  unfold Cert.Spec.unitRow Cert.Spec.rnorm
  rw [projected_apply]
  refine congrArg (Ideal.div _) (congrArg (max · Cert.Spec.epsI) (congrArg Ideal.sqrt (Finset.sum_congr rfl fun e' _ => ?_)))
  rw [projected_apply]

/-- The zero column: the splat of the zero word, re-laid in its own shape, is `0` at every row. -/
theorem k1_pay2_apply (p : Fin 1024) : k1_pay2 (F := Ideal) (ix2 p (0 : Fin 1)) = 0 := by
  unfold k1_pay2
  rw [shapeCast_self]
  show Ideal.ofBits .f32 0x00000000#32 = 0
  exact Ideal.ofBits_zero_f32

/-- The accumulation step at row `p`: the running column's entry plus, summed over the rows `k` of the second operand,
    the cube of the inner product of row `p` of the first operand with row `k`, times the weight of `k`. -/
theorem k1_pay3_apply (xs0 : Vec Ideal S1024x512 .bf16) (x3 : Vec Ideal S1024x512 .bf16) (x4 : Vec Ideal S1x1024 .f32) (acc : Vec Ideal S1024x1 .f32) (p : Fin 1024) :
    k1_pay3 (F := Ideal) xs0 x3 x4 acc (ix2 p (0 : Fin 1)) = acc (ix2 p (0 : Fin 1)) + ∑ k : Fin 1024, Cert.Spec.term (fun e => xs0 (ix2 p e)) (fun e => x3 (ix2 k e)) (x4 (ix2 (0 : Fin 1) k)) := by
  unfold k1_pay3
  simp only [shapeCast_self]
  rw [addf_apply, shapeCast_a_a1_apply]
  refine congrArg (acc (ix2 p (0 : Fin 1)) + ·) ((laneSum1024_apply _ _ _ _ p).trans (Finset.sum_congr rfl fun k _ => ?_))
  rw [mulf_apply, mulf_apply, mulf_apply, broadcastTo_1b_ab_apply, matmul_rows_apply]
  rfl

end Cert.PaySide
end
-- ==== Proof.KIVal0.lean ====
import proofs.«106562_j60000693125634_2_alg».proof.Proof.KIBlocks
import proofs.«106562_j60000693125634_2_alg».proof.Proof.PaySide
import proofs.«106562_j60000693125634_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! # The first region's result: the normalized projected exemplars, as one function of the array index -/

variable (V : (c : Dev nD) → (b : Ref sig .tc) → Buf (Elt Ideal) ((c : Thread nD τ).loc b))

/-- A unit row depends on its own row of the array only. -/
theorem unitRow_congr {n n' : ℕ} (A : Fin n → Fin 768 → EReal) (A' : Fin n' → Fin 768 → EReal) (gw : Fin 512 → Fin 768 → EReal) (gb : Fin 512 → EReal)
    (b : Fin n) (b' : Fin n') (h : ∀ f, A b f = A' b' f) (e : Fin 512) : Spec.unitRow A gw gb b e = Spec.unitRow A' gw gb b' e := by
  have hp : ∀ e, Spec.proj A gw gb b e = Spec.proj A' gw gb b' e := fun e => by unfold Spec.proj; simp only [h]
  unfold Spec.unitRow Spec.rnorm; simp only [hp]

/-- The exemplars, the weights and the bias as the first region finds them. -/
def Dg (c : Dev nD) : Fin 16384 → Fin 768 → EReal := fun n f => (V c main_arg1 : S16384x768.Idx → EReal) (ix2 n f)
def gwg (c : Dev nD) : Fin 512 → Fin 768 → EReal := fun e f => (V c main_arg3 : S512x768.Idx → EReal) (ix2 e f)
def gb0 (c : Dev nD) : Fin 512 → EReal := fun e => (V c main_v0 : S1x512.Idx → EReal) (ix2 (0 : Fin 1) e)

/-- Entry `(n, e)` of the normalized exemplars: entry `e` of the unit row of exemplar `n`. -/
def GDn (c : Dev nD) : S16384x512.Idx → EReal :=
  fun i => Spec.unitRow (Dg V c) (gwg V c) (gb0 V c) ⟨(i 0).val, (i 0).isLt⟩ ⟨(i 1).val, (i 1).isLt⟩

/-- What point `t` writes back is its block of that function. -/
theorem flushed0_eq (c : Dev nD) (t : Fin cfg0.N) :
    (dat0 V c).flushed 3 t = ((cfg0.win 3).blk t).view.read (Elt Ideal) (GDn V c) := by
  show (cfg0.win 3).cut (grid0.coords t) ((dat0 V c).after 3 t) = _
  rw [after0_3]
  unfold out0_3
  rw [View.canon_unit_zero hz]
  simp only [View.ld_unit_zero (S := S1024x768) hz, View.ld_unit_zero (S := S512x768) hz, View.ld_unit_zero (S := S1x512) hz]
  funext j
  obtain ⟨p, e, rfl⟩ : ∃ (p : Fin 1024) (e : Fin 512), j = ix2 p e := ⟨j 0, j 1, eq_ix2 j⟩
  rw [View.read_apply, emb0_3]
  refine (Cert.PaySide.k0_pay1_apply (iblk0 V c 0 t) (iblk0 V c 1 t) (iblk0 V c 2 t) p e).trans ?_
  have e1 : (fun e f => (iblk0 V c 1 t : Vec Ideal S512x768 .f32) (ix2 e f)) = gwg V c :=
    funext fun e => funext fun f => iblk0_1_apply V c t e f
  have e2 : (fun e => (iblk0 V c 2 t : Vec Ideal S1x512 .f32) (ix2 (0 : Fin 1) e)) = gb0 V c :=
    funext fun e => iblk0_2_apply V c t 0 e
  rw [e1, e2]
  exact unitRow_congr _ (Dg V c) _ _ p _ (fun f => iblk0_0_apply V c t p f) e

/-- So the array ends holding it. -/
theorem final0 (c : Dev nD) : (dat0 V c).arrAt 3 cfg0.N = GDn V c :=
  (dat0 V c).arrAt_eq_of_cover 3 (GDn V c) (fun t _ => flushed0_eq V c t) cover0_3'

end Cert.KernelIdeal.Hand

end
-- ==== Proof.KIPieces.lean ====
import proofs.«106562_j60000693125634_2_alg».proof.Proof.KIBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each case of the second region's body leaves, as the body's own arithmetic of the point's blocks -/

variable (V : (c : Dev nD) → (b : Ref sig .tc) → Buf (Elt F) ((c : Thread nD τ).loc b))

/-- A first point of a sweep leaves the normalized projected query rows in the first scratch buffer, -/
theorem sA0_eq (c : Dev nD) (t : Fin cfg1.N) (h0 : t.val % 16 = 0) :
    sA0 V c t h0 = k1_pay1 (iblk1 V c 0 t) (iblk1 V c 1 t) (iblk1 V c 2 t) := by
  unfold sA0
  rw [View.read_writes_eq_canon _ _ _ (scoverA_0 V c t h0)]
  unfold runA kernelRun1_A
  dsimp only
  try sl_unfold_words
  rw [View.canon_unit_zero hz]
  simp only [View.readAt_eq_ld, (hs1_0 t).read_unread, (hs1_1 t).read_unread, (hs1_2 t).read_unread, (hs1_3 t).read_unread, (hs1_4 t).read_unread, Memref.IsWhole.read_unread, View.ld_unit_zero (S := S1024x768) hz, View.ld_unit_zero (S := S512x768) hz, View.ld_unit_zero (S := S1x512) hz, View.ld_unit_zero (S := S1024x512) hz, View.ld_unit_zero (S := S1x1024) hz, View.ld_unit_zero (S := S1024x1) hz]

/-- and, in the second, the block's weighted sum of cubes added to zero. -/
theorem sA1_eq (c : Dev nD) (t : Fin cfg1.N) (h0 : t.val % 16 = 0) :
    sA1 V c t h0 = k1_pay3 (k1_pay1 (iblk1 V c 0 t) (iblk1 V c 1 t) (iblk1 V c 2 t)) (iblk1 V c 3 t) (iblk1 V c 4 t) k1_pay2 := by
  unfold sA1
  rw [View.read_writes_eq_canon _ _ _ (scoverA_1 V c t h0)]
  unfold runA kernelRun1_A
  dsimp only
  try sl_unfold_words
  rw [View.canon_cons_unit_zero hz, View.readCov_unit_zero (S := S1024x512) _ hz, View.readCov_unit_zero (S := S1024x1) _ hz]
  simp only [View.readAt_eq_ld, (hs1_0 t).read_unread, (hs1_1 t).read_unread, (hs1_2 t).read_unread, (hs1_3 t).read_unread, (hs1_4 t).read_unread, Memref.IsWhole.read_unread, View.ld_unit_zero (S := S1024x768) hz, View.ld_unit_zero (S := S512x768) hz, View.ld_unit_zero (S := S1x512) hz, View.ld_unit_zero (S := S1024x512) hz, View.ld_unit_zero (S := S1x1024) hz, View.ld_unit_zero (S := S1024x1) hz]

/-- A middle point adds its block's weighted sum of cubes to the running sum. -/
theorem sB1_eq (c : Dev nD) (t : Fin cfg1.N) (h0 : ¬t.val % 16 = 0) (h1 : ¬t.val % 16 = 15) (xs0 : Vec F S1024x512 .bf16) (xs1 : Vec F S1024x1 .f32) :
    sB1 V c t h0 h1 xs0 xs1 = k1_pay3 xs0 (iblk1 V c 3 t) (iblk1 V c 4 t) xs1 := by
  unfold sB1
  rw [View.read_writes_eq_canon _ _ _ (scoverB_1 V c t h0 h1 xs0 xs1)]
  unfold runB kernelRun1_B
  dsimp only
  try sl_unfold_words
  rw [View.canon_unit_zero hz]
  simp only [View.readAt_eq_ld, (hs1_0 t).read_unread, (hs1_1 t).read_unread, (hs1_2 t).read_unread, (hs1_3 t).read_unread, (hs1_4 t).read_unread, Memref.IsWhole.read_unread, View.ld_unit_zero (S := S1024x768) hz, View.ld_unit_zero (S := S512x768) hz, View.ld_unit_zero (S := S1x512) hz, View.ld_unit_zero (S := S1024x512) hz, View.ld_unit_zero (S := S1x1024) hz, View.ld_unit_zero (S := S1024x1) hz]
  exact congrArg₂ (fun a d => k1_pay3 a (iblk1 V c 3 t) (iblk1 V c 4 t) d)
    (Memref.IsWhole.read_unread (Val := Elt F) (m := scM1_0) (Memref.isWhole_whole _) xs0) (Memref.IsWhole.read_unread (Val := Elt F) (m := scM1_1) (Memref.isWhole_whole _) xs1)

/-- So does the last point, -/
theorem sC1_eq (c : Dev nD) (t : Fin cfg1.N) (h0 : ¬t.val % 16 = 0) (h1 : t.val % 16 = 15) (xs0 : Vec F S1024x512 .bf16) (xs1 : Vec F S1024x1 .f32) :
    sC1 V c t h0 h1 xs0 xs1 = k1_pay3 xs0 (iblk1 V c 3 t) (iblk1 V c 4 t) xs1 := by
  unfold sC1
  rw [View.read_writes_eq_canon _ _ _ (scoverC_1 V c t h0 h1 xs0 xs1)]
  unfold runC kernelRun1_C
  dsimp only
  try sl_unfold_words
  rw [View.canon_unit_zero hz]
  simp only [View.readAt_eq_ld, (hs1_0 t).read_unread, (hs1_1 t).read_unread, (hs1_2 t).read_unread, (hs1_3 t).read_unread, (hs1_4 t).read_unread, Memref.IsWhole.read_unread, View.ld_unit_zero (S := S1024x768) hz, View.ld_unit_zero (S := S512x768) hz, View.ld_unit_zero (S := S1x512) hz, View.ld_unit_zero (S := S1024x512) hz, View.ld_unit_zero (S := S1x1024) hz, View.ld_unit_zero (S := S1024x1) hz]
  exact congrArg₂ (fun a d => k1_pay3 a (iblk1 V c 3 t) (iblk1 V c 4 t) d)
    (Memref.IsWhole.read_unread (Val := Elt F) (m := scM1_0) (Memref.isWhole_whole _) xs0) (Memref.IsWhole.read_unread (Val := Elt F) (m := scM1_1) (Memref.isWhole_whole _) xs1)

/-- which then copies the sum into the output buffer. -/
theorem oC5_eq (c : Dev nD) (t : Fin cfg1.N) (h0 : ¬t.val % 16 = 0) (h1 : t.val % 16 = 15) (xs0 : Vec F S1024x512 .bf16) (xs1 : Vec F S1024x1 .f32) :
    oC5 V c t h0 h1 xs0 xs1 = k1_pay3 xs0 (iblk1 V c 3 t) (iblk1 V c 4 t) xs1 := by
  unfold oC5
  rw [View.read_writes_eq_canon _ _ _ (coverC_5 V c t h0 h1 xs0 xs1)]
  unfold runC kernelRun1_C
  dsimp only
  try sl_unfold_words
  rw [View.canon_unit_zero hz, View.readCov_unit_zero (S := S1024x1) _ hz]
  simp only [View.readAt_eq_ld, (hs1_0 t).read_unread, (hs1_1 t).read_unread, (hs1_2 t).read_unread, (hs1_3 t).read_unread, (hs1_4 t).read_unread, Memref.IsWhole.read_unread, View.ld_unit_zero (S := S1024x768) hz, View.ld_unit_zero (S := S512x768) hz, View.ld_unit_zero (S := S1x512) hz, View.ld_unit_zero (S := S1024x512) hz, View.ld_unit_zero (S := S1x1024) hz, View.ld_unit_zero (S := S1024x1) hz]
  exact congrArg₂ (fun a d => k1_pay3 a (iblk1 V c 3 t) (iblk1 V c 4 t) d)
    (Memref.IsWhole.read_unread (Val := Elt F) (m := scM1_0) (Memref.isWhole_whole _) xs0) (Memref.IsWhole.read_unread (Val := Elt F) (m := scM1_1) (Memref.isWhole_whole _) xs1)

end Cert.KernelIdeal.Hand

end
-- ==== Proof.KIVal1.lean ====
import proofs.«106562_j60000693125634_2_alg».proof.Proof.KIPieces
import proofs.«106562_j60000693125634_2_alg».proof.Proof.KIVal0
import proofs.«106562_j60000693125634_2_alg».proof.Proof.PaySide
import proofs.«106562_j60000693125634_2_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! # The second region's result

For query row `b` the sweep over the 16 exemplar blocks builds, block by block, the sum over all exemplars of the
cubed similarity times the re-centred rating. Here: the invariant of the two scratch buffers point by point, and the
array the write-backs leave. -/

variable (V : (c : Dev nD) → (b : Ref sig .tc) → Buf (Elt Ideal) ((c : Thread nD τ).loc b))

/-- The queries, the weights, the bias row, the normalized exemplars and the re-centred ratings as the second
    region finds them. -/
def Xg (c : Dev nD) : Fin 4096 → Fin 768 → EReal := fun b f => (V c main_arg0 : S4096x768.Idx → EReal) (ix2 b f)
def gw1 (c : Dev nD) : Fin 512 → Fin 768 → EReal := fun e f => (V c main_arg3 : S512x768.Idx → EReal) (ix2 e f)
def gb1 (c : Dev nD) : Fin 512 → EReal := fun e => (V c main_v7 : S1x512.Idx → EReal) (ix2 (0 : Fin 1) e)
def Dn1 (c : Dev nD) : Fin 16384 → Fin 512 → EReal := fun n e => (V c main_v1 : S16384x512.Idx → EReal) (ix2 n e)
def r21 (c : Dev nD) : Fin 16384 → EReal := fun n => (V c main_v6 : S1x16384.Idx → EReal) (ix2 (0 : Fin 1) n)

/-- The unit row of query `b`. -/
def qrow (c : Dev nD) (b : Fin 4096) : Fin 512 → EReal := Spec.unitRow (Xg V c) (gw1 V c) (gb1 V c) b

/-- Exemplar block `j`'s part of query row `b`'s sum. -/
def blockSum (c : Dev nD) (b : Fin 4096) (j : Fin 16) : EReal :=
  ∑ k : Fin 1024, Spec.term (qrow V c b) (Dn1 V c (rowOf (n := 16384) j.val k (by have := j.isLt; omega)))
    (r21 V c (rowOf (n := 16384) j.val k (by have := j.isLt; omega)))

/-- The parts of the blocks up to `j`, added. -/
def partSum (c : Dev nD) (b : Fin 4096) (j : ℕ) : EReal :=
  ∑ j' ∈ Finset.univ.filter (fun j' : Fin 16 => j'.val ≤ j), blockSum V c b j'

theorem partSum_zero (c : Dev nD) (b : Fin 4096) : partSum V c b 0 = blockSum V c b 0 := by
  have : Finset.univ.filter (fun j' : Fin 16 => j'.val ≤ 0) = {0} := by
    ext x; simp only [Finset.mem_filter, Finset.mem_univ, true_and, Finset.mem_singleton, Fin.ext_iff]; show x.val ≤ 0 ↔ x.val = 0; omega
  rw [partSum, this, Finset.sum_singleton]

theorem partSum_succ (c : Dev nD) (b : Fin 4096) (j : ℕ) (h : j + 1 < 16) :
    partSum V c b (j + 1) = partSum V c b j + blockSum V c b ⟨j + 1, h⟩ := by
  have : Finset.univ.filter (fun j' : Fin 16 => j'.val ≤ j + 1) = insert ⟨j + 1, h⟩ (Finset.univ.filter (fun j' : Fin 16 => j'.val ≤ j)) := by
    ext x; simp only [Finset.mem_filter, Finset.mem_univ, true_and, Finset.mem_insert, Fin.ext_iff]; omega
  rw [partSum, this, Finset.sum_insert (by simp only [Finset.mem_filter, Finset.mem_univ, true_and]; omega), add_comm]
  rfl

theorem partSum_last (c : Dev nD) (b : Fin 4096) : partSum V c b 15 = ∑ j : Fin 16, blockSum V c b j := by
  rw [partSum, Finset.filter_true_of_mem (fun x _ => by have := x.isLt; omega)]

attribute [local irreducible] outsAt1 sA0 sA1 sB1 sC1 oC5

/-- The query row block of point `t`. -/
abbrev qOf (t : Fin cfg1.N) (p : Fin 1024) : Fin 4096 := rowOf (n := 4096) (t.val / 16) p (by have := lt64 t; omega)

/-- ONE STEP: on a first scratch holding the unit rows of the point's query rows, the body's sum adds, to what the
    second scratch held, the part of the point's exemplar block. -/
theorem step (c : Dev nD) (t : Fin cfg1.N) (xs0 : Vec Ideal S1024x512 .bf16) (xs1 : Vec Ideal S1024x1 .f32)
    (hxs0 : ∀ p e, xs0 (ix2 p e) = qrow V c (qOf t p) e) (p : Fin 1024) :
    k1_pay3 (F := Ideal) xs0 (iblk1 V c 3 t) (iblk1 V c 4 t) xs1 (ix2 p (0 : Fin 1))
      = xs1 (ix2 p (0 : Fin 1)) + blockSum V c (qOf t p) ⟨t.val % 16, Nat.mod_lt _ (by decide)⟩ := by
  rw [Cert.PaySide.k1_pay3_apply]
  refine congrArg (xs1 (ix2 p (0 : Fin 1)) + ·) ?_
  unfold blockSum
  refine Finset.sum_congr rfl fun k _ => ?_
  have h0 : (fun e => xs0 (ix2 p e)) = qrow V c (qOf t p) := funext fun e => hxs0 p e
  have h3 : (fun e => (iblk1 V c 3 t : Vec Ideal S1024x512 .bf16) (ix2 k e)) = Dn1 V c (rowOf (n := 16384) (t.val % 16) k (by omega)) :=
    funext fun e => iblk1_3_apply V c t k e
  have h4 : (iblk1 V c 4 t : Vec Ideal S1x1024 .f32) (ix2 (0 : Fin 1) k) = r21 V c (rowOf (n := 16384) (t.val % 16) k (by omega)) :=
    iblk1_4_apply V c t 0 k
  rw [h0, h3, h4]

/-- What the first point of a sweep leaves in the first scratch: the unit rows of the point's query rows. -/
theorem first_rows (c : Dev nD) (t : Fin cfg1.N) (p : Fin 1024) (e : Fin 512) :
    k1_pay1 (F := Ideal) (iblk1 V c 0 t) (iblk1 V c 1 t) (iblk1 V c 2 t) (ix2 p e) = qrow V c (qOf t p) e := by
  refine (Cert.PaySide.k1_pay1_apply (iblk1 V c 0 t) (iblk1 V c 1 t) (iblk1 V c 2 t) p e).trans ?_
  have e1 : (fun e f => (iblk1 V c 1 t : Vec Ideal S512x768 .f32) (ix2 e f)) = gw1 V c :=
    funext fun e => funext fun f => iblk1_1_apply V c t e f
  have e2 : (fun e => (iblk1 V c 2 t : Vec Ideal S1x512 .f32) (ix2 (0 : Fin 1) e)) = gb1 V c :=
    funext fun e => iblk1_2_apply V c t 0 e
  rw [e1, e2]
  exact unitRow_congr _ (Xg V c) _ _ p _ (fun f => iblk1_0_apply V c t p f) e

/-- THE INVARIANT after point `t`: the first scratch holds the unit rows of the point's query rows, the second the
    parts of the exemplar blocks swept so far, added. -/
def InvAt (c : Dev nD) (t : Fin cfg1.N) (o : Vec Ideal S1024x1 .f32 × Vec Ideal S1024x512 .bf16 × Vec Ideal S1024x1 .f32) : Prop :=
  (∀ p e, o.2.1 (ix2 p e) = qrow V c (qOf t p) e) ∧ (∀ p, o.2.2 (ix2 p (0 : Fin 1)) = partSum V c (qOf t p) (t.val % 16))

theorem inv_A (c : Dev nD) (t : Fin cfg1.N) (h0 : t.val % 16 = 0) : InvAt V c t (outsAt1 V c t.val t.isLt) := by
  rw [outsAt1_A V c t h0]
  refine ⟨fun p e => ?_, fun p => ?_⟩
  · dsimp only
    rw [sA0_eq]; exact first_rows V c t p e
  · dsimp only
    rw [sA1_eq, step V c t _ _ (first_rows V c t) p, Cert.PaySide.k1_pay2_apply, zero_add]
    have hj : (⟨t.val % 16, Nat.mod_lt _ (by decide)⟩ : Fin 16) = 0 := Fin.ext h0
    rw [hj, h0, partSum_zero]

/-- The point before `t` (for a point that is not the first of its sweep). -/
abbrev tPrev (t : Fin cfg1.N) : Fin cfg1.N := ⟨t.val - 1, Nat.lt_of_le_of_lt (Nat.sub_le _ _) t.isLt⟩

theorem qOf_prev (t : Fin cfg1.N) (h0 : ¬t.val % 16 = 0) (p : Fin 1024) : qOf (tPrev t) p = qOf t p := by
  apply Fin.ext
  show 1024 * ((t.val - 1) / 16) + p.val = 1024 * (t.val / 16) + p.val
  have : (t.val - 1) / 16 = t.val / 16 := by omega
  rw [this]

theorem inv_step (c : Dev nD) (t : Fin cfg1.N) (h0 : ¬t.val % 16 = 0) (ih : InvAt V c (tPrev t) (prevAt V c t)) (p : Fin 1024) :
    k1_pay3 (F := Ideal) (prevAt V c t).2.1 (iblk1 V c 3 t) (iblk1 V c 4 t) (prevAt V c t).2.2 (ix2 p (0 : Fin 1))
      = partSum V c (qOf t p) (t.val % 16) := by
  have hrows : ∀ p e, (prevAt V c t).2.1 (ix2 p e) = qrow V c (qOf t p) e := fun p e => by
    rw [ih.1 p e, qOf_prev t h0 p]
  rw [step V c t _ _ hrows p, ih.2 p, qOf_prev t h0 p]
  have hm : (t.val - 1) % 16 + 1 = t.val % 16 := by omega
  have hlt : (t.val - 1) % 16 + 1 < 16 := by omega
  have hj : (⟨t.val % 16, Nat.mod_lt _ (by decide)⟩ : Fin 16) = ⟨(t.val - 1) % 16 + 1, hlt⟩ := Fin.ext hm.symm
  rw [hj, ← hm]
  exact (partSum_succ V c (qOf t p) ((t.val - 1) % 16) hlt).symm

theorem inv_B (c : Dev nD) (t : Fin cfg1.N) (h0 : ¬t.val % 16 = 0) (h1 : ¬t.val % 16 = 15)
    (ih : InvAt V c (tPrev t) (prevAt V c t)) : InvAt V c t (outsAt1 V c t.val t.isLt) := by
  rw [outsAt1_B V c t h0 h1]
  refine ⟨fun p e => ?_, fun p => ?_⟩
  · dsimp only
    rw [ih.1 p e, qOf_prev t h0 p]
  · dsimp only
    rw [sB1_eq]; exact inv_step V c t h0 ih p

theorem inv_C (c : Dev nD) (t : Fin cfg1.N) (h0 : ¬t.val % 16 = 0) (h1 : t.val % 16 = 15)
    (ih : InvAt V c (tPrev t) (prevAt V c t)) : InvAt V c t (outsAt1 V c t.val t.isLt) := by
  rw [outsAt1_C V c t h0 h1]
  refine ⟨fun p e => ?_, fun p => ?_⟩
  · dsimp only
    rw [ih.1 p e, qOf_prev t h0 p]
  · dsimp only
    rw [sC1_eq]; exact inv_step V c t h0 ih p

theorem inv_all (c : Dev nD) : ∀ (n : ℕ) (hn : n < cfg1.N), InvAt V c ⟨n, hn⟩ (outsAt1 V c n hn) := by
  intro n
  induction n with
  | zero => intro hn; exact inv_A V c ⟨0, hn⟩ (Nat.zero_mod _)
  | succ n ih =>
    intro hn
    by_cases h0 : (n + 1) % 16 = 0
    · exact inv_A V c ⟨n + 1, hn⟩ h0
    · by_cases h1 : (n + 1) % 16 = 15
      · exact inv_C V c ⟨n + 1, hn⟩ h0 h1 (ih (Nat.lt_of_succ_lt hn))
      · exact inv_B V c ⟨n + 1, hn⟩ h0 h1 (ih (Nat.lt_of_succ_lt hn))

/-- The result as one function of the array index: for row `b`, all sixteen parts added. -/
def Gecho (c : Dev nD) : S4096x1.Idx → EReal := fun i => ∑ j : Fin 16, blockSum V c ⟨(i 0).val, (i 0).isLt⟩ j

theorem inv_at (c : Dev nD) (t : Fin cfg1.N) : InvAt V c t (outsAt1 V c t.val t.isLt) := inv_all V c t.val t.isLt

/-- At the last point of a sweep the output buffer holds the completed sums of the point's query rows. -/
theorem out_last (c : Dev nD) (t : Fin cfg1.N) (h1 : t.val % 16 = 15) (p : Fin 1024) :
    (outsAt1 V c t.val t.isLt).1 (ix2 p (0 : Fin 1)) = ∑ j : Fin 16, blockSum V c (qOf t p) j := by
  have h0 : ¬t.val % 16 = 0 := by omega
  have hinv := (inv_at V c t).2 p
  have h2 : (outsAt1 V c t.val t.isLt).1 = (outsAt1 V c t.val t.isLt).2.2 := by
    rw [outsAt1_C V c t h0 h1]; dsimp only; rw [oC5_eq, sC1_eq]
  rw [h2, hinv, h1, partSum_last]

/-- What a write-back writes is its block of `Gecho`. -/
theorem flushed1_eq (c : Dev nD) (t : Fin cfg1.N) (hf : (cfg1.win 5).flush t = true) :
    (dat1 V c).flushed 5 t = ((cfg1.win 5).blk t).view.read (Elt Ideal) (Gecho V c) := by
  have h1 : t.val % 16 = 15 := (flush1_5 t).mp hf
  show (cfg1.win 5).cut (grid1.coords t) ((dat1 V c).after 5 t) = _
  rw [after1_5]
  funext j
  obtain ⟨p, u, rfl⟩ : ∃ (p : Fin 1024) (u : Fin 1), j = ix2 p u := ⟨j 0, j 1, eq_ix2 j⟩
  obtain rfl : u = 0 := Subsingleton.elim _ _
  rw [View.read_apply, emb1_5]
  exact out_last V c t h1 p

/-- So the array ends holding it. -/
theorem final1 (c : Dev nD) : (dat1 V c).arrAt 5 cfg1.N = Gecho V c :=
  (dat1 V c).arrAt_eq_of_cover 5 (Gecho V c) (flushed1_eq V c) cover1_5'

end Cert.KernelIdeal.Hand

end
-- ==== Proof.LibColumnAsRow.lean ====
import Idealize.ShloMosaic.Lib.Pipeline.Value
import Idealize.ShloMosaic.Lib.ValueIdx

/-!
# A column re-laid as a row, read at an index

A column `[a, 1]` reshaped to a row `[1, a]` keeps its entries in order: entry `(0, i)` of the row is entry `(i, 0)`
of the column. (The companion of the library's `[a] → [1, a]` and of the trailing-unit-axis forms `[a] → [a, 1]`.)
-/

namespace Idealize.ShloMosaic.ValueIdx

open Idealize.ShloMosaic

variable {α : Type}

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + (0 : Fin 1).val = u.val * a + i.val
    rw [hu, Nat.mul_one, Nat.zero_mul, Nat.zero_add]
    rfl)

end Idealize.ShloMosaic.ValueIdx
-- ==== Proof.LibSumBlocks.lean ====
import Mathlib.Algebra.BigOperators.Fin
import Mathlib.Logic.Equiv.Fin.Basic

/-!
# A sum over `q · n` indices as `q` blocks of `n`

In any commutative additive monoid — in particular on the extended reals, where no finiteness is needed — a sum
over `Fin (q * n)` is the sum over the `q` consecutive blocks of the sums over each block's `n` indices.
-/

namespace Cert.LibSumBlocks

theorem block_lt {q n : ℕ} (j : Fin q) (k : Fin n) : n * j.val + k.val < q * n := by
  have hj := j.isLt; have hk := k.isLt
  calc n * j.val + k.val < n * j.val + n := by omega
    _ = n * (j.val + 1) := by rw [Nat.mul_add, Nat.mul_one]
    _ ≤ n * q := Nat.mul_le_mul_left _ hj
    _ = q * n := Nat.mul_comm _ _

/-- The sum over `Fin (q * n)`, block by block. -/
theorem sum_blocks {M : Type*} [AddCommMonoid M] (q n : ℕ) (f : Fin (q * n) → M) :
    ∑ i, f i = ∑ j : Fin q, ∑ k : Fin n, f ⟨n * j.val + k.val, block_lt j k⟩ := by
  rw [← (finProdFinEquiv (m := q) (n := n)).sum_comp, Fintype.sum_prod_type]
  refine Finset.sum_congr rfl fun j _ => Finset.sum_congr rfl fun k _ => ?_
  congr 1
  apply Fin.ext
  show k.val + n * j.val = n * j.val + k.val
  exact Nat.add_comm _ _

end Cert.LibSumBlocks
-- ==== Proof.KIGlue.lean ====
import proofs.«106562_j60000693125634_2_alg».proof.Proof.KIRun
import proofs.«106562_j60000693125634_2_alg».proof.Proof.KIVal0
import proofs.«106562_j60000693125634_2_alg».proof.Proof.KIVal1
import proofs.«106562_j60000693125634_2_alg».proof.Proof.LibColumnAsRow
import proofs.«106562_j60000693125634_2_alg».proof.Proof.LibSumBlocks
import proofs.«106562_j60000693125634_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open Idealize.ShloMosaic.StableHlo

/-! # From the launch memory to the two results

The host stretches re-lay the bias as a row, re-centre the ratings and re-lay them as a row, and after the second
region apply the affine map and the logistic function. Reading each boundary's contents back to the launch memory
gives the first result, at every row, as the specification's function of the seven arguments. -/

variable (m : (ℓ : Loc nD τ sig) → Buf (Elt Ideal) ℓ) (ρ : Dev nD → PrngReg)

/-- The seven arguments as functions of their coordinates. -/
def aX (c : Dev nD) : Fin 4096 → Fin 768 → EReal := fun b f => (m ((c : Thread nD τ).loc main_arg0) : S4096x768.Idx → EReal) (ix2 b f)
def aD (c : Dev nD) : Fin 16384 → Fin 768 → EReal := fun n f => (m ((c : Thread nD τ).loc main_arg1) : S16384x768.Idx → EReal) (ix2 n f)
def aR (c : Dev nD) : Fin 16384 → EReal := fun n => (m ((c : Thread nD τ).loc main_arg2) : S16384x1.Idx → EReal) (ix2 n (0 : Fin 1))
def aGw (c : Dev nD) : Fin 512 → Fin 768 → EReal := fun e f => (m ((c : Thread nD τ).loc main_arg3) : S512x768.Idx → EReal) (ix2 e f)
def aGb (c : Dev nD) : Fin 512 → EReal := fun e => (m ((c : Thread nD τ).loc main_arg4) : S512.Idx → EReal) (ix1 e)
def aHw (c : Dev nD) : EReal := (m ((c : Thread nD τ).loc main_arg5) : S1x1.Idx → EReal) (ix2 (0 : Fin 1) (0 : Fin 1))
def aHb (c : Dev nD) : EReal := (m ((c : Thread nD τ).loc main_arg6) : S1.Idx → EReal) (ix1 (0 : Fin 1))

/-! ## What the first region finds -/

theorem Dg_eq (c : Dev nD) : Dg (V1 m ρ) c = aD m c :=
  funext fun n => funext fun f => congrFun (W1_arg m ρ c main_arg1 (by decide)) (ix2 n f)
theorem gwg_eq (c : Dev nD) : gwg (V1 m ρ) c = aGw m c :=
  funext fun e => funext fun f => congrFun (W1_arg m ρ c main_arg3 (by decide)) (ix2 e f)

/-- The first host stretch re-lays the bias as a `[1, 512]` row. -/
theorem W1_v0 (c : Dev nD) : (W1 m ρ c (Proc.devRef .tc main_v0) : (⟨S1x512, .f32⟩ : BufTy).Contents (Elt Ideal))
    = shapeCast S1x512 (m ((c : Thread nD τ).loc main_arg4) : (⟨S512, .f32⟩ : BufTy).Contents (Elt Ideal)) shapeCasts_S512_S1x512 := by
  show StableHlo.after hostOps0 (W0 m ρ c) (Proc.devRef .tc main_v0) = _
  after_results
  rfl
theorem gb0_eq (c : Dev nD) : gb0 (V1 m ρ) c = aGb m c :=
  funext fun e => by
    show (W1 m ρ c (Proc.devRef .tc main_v0) : (⟨S1x512, .f32⟩ : BufTy).Contents (Elt Ideal)) (ix2 (0 : Fin 1) e) = _
    rw [W1_v0]
    exact shapeCast_a_1a_apply _ _ 0 e

/-! ## What the second region finds -/

theorem W3_arg (c : Dev nD) (b : Ref sig .tc) (h1 : b ∉ hostOps1_W) (h0 : b ∉ hostOps0_W) (hw : ∀ w, Pipeline.arrRef spec0 w ≠ b) :
    W3 m ρ c (Proc.devRef .tc b) = m ((c : Thread nD τ).loc b) :=
  (W3_of m ρ c b h1).trans <| (W2_of_ne m ρ c b hw).trans <| W1_arg m ρ c b h0

theorem Xg_eq (c : Dev nD) : Xg (V3 m ρ) c = aX m c :=
  funext fun b => funext fun f => congrFun (W3_arg m ρ c main_arg0 (by decide) (by decide) (by decide)) (ix2 b f)
theorem gw1_eq (c : Dev nD) : gw1 (V3 m ρ) c = aGw m c :=
  funext fun e => funext fun f => congrFun ((W3_of m ρ c main_arg3 (by decide)).trans <| (W2_in m ρ c 1 rfl).trans <| W1_arg m ρ c main_arg3 (by decide)) (ix2 e f)

theorem W3_v7 (c : Dev nD) : (W3 m ρ c (Proc.devRef .tc main_v7) : (⟨S1x512, .f32⟩ : BufTy).Contents (Elt Ideal))
    = shapeCast S1x512 (W2 m ρ c (Proc.devRef .tc main_arg4) : (⟨S512, .f32⟩ : BufTy).Contents (Elt Ideal)) shapeCasts_S512_S1x512 := by
  show StableHlo.after hostOps1 (W2 m ρ c) (Proc.devRef .tc main_v7) = _
  after_results
  rfl
theorem gb1_eq (c : Dev nD) : gb1 (V3 m ρ) c = aGb m c :=
  funext fun e => by
    show (W3 m ρ c (Proc.devRef .tc main_v7) : (⟨S1x512, .f32⟩ : BufTy).Contents (Elt Ideal)) (ix2 (0 : Fin 1) e) = _
    rw [W3_v7, shapeCast_a_1a_apply _ _ 0 e]
    exact congrFun ((W2_of_ne m ρ c main_arg4 (by decide)).trans (W1_arg m ρ c main_arg4 (by decide))) (ix1 e)

/-- The second host stretch re-centres the ratings and re-lays them as a `[1, 16384]` row. -/
theorem W3_v6 (c : Dev nD) : (W3 m ρ c (Proc.devRef .tc main_v6) : (⟨S1x16384, .f32⟩ : BufTy).Contents (Elt Ideal))
    = shapeCast S1x16384 (subf (mulf (W2 m ρ c (Proc.devRef .tc main_arg2) : (⟨S16384x1, .f32⟩ : BufTy).Contents (Elt Ideal))
          (broadcastInDim S16384x1 ![] bcast_S_S16384x1 (constant (F := Ideal) S_ .f32 0x40000000#32)))
        (broadcastInDim S16384x1 ![] bcast_S_S16384x1 (constant (F := Ideal) S_ .f32 0x3F800000#32))) shapeCasts_S16384x1_S1x16384 := by
  show StableHlo.after hostOps1 (W2 m ρ c) (Proc.devRef .tc main_v6) = _
  after_results
  rfl
theorem r21_eq (c : Dev nD) (n : Fin 16384) : r21 (V3 m ρ) c n = Spec.wgt (aR m c) n := by
  show (W3 m ρ c (Proc.devRef .tc main_v6) : (⟨S1x16384, .f32⟩ : BufTy).Contents (Elt Ideal)) (ix2 (0 : Fin 1) n) = _
  rw [W3_v6, shapeCast_a1_1a_apply _ _ 0 n]
  have e2 : (W2 m ρ c (Proc.devRef .tc main_arg2) : (⟨S16384x1, .f32⟩ : BufTy).Contents (Elt Ideal)) = m ((c : Thread nD τ).loc main_arg2) :=
    (W2_of_ne m ρ c main_arg2 (by decide)).trans (W1_arg m ρ c main_arg2 (by decide))
  rw [e2]
  rfl

/-- The normalized exemplars the second region finds are the first region's result. -/
theorem Dn1_eq (c : Dev nD) (n : Fin 16384) (e : Fin 512) :
    Dn1 (V3 m ρ) c n e = Spec.unitRow (aD m c) (aGw m c) (aGb m c) n e := by
  have h : W3 m ρ c (Proc.devRef .tc main_v1) = GDn (V1 m ρ) c :=
    (W3_of m ρ c main_v1 (by decide)).trans <| (W2_arr m ρ c 3).trans (final0 (V1 m ρ) c)
  show (W3 m ρ c (Proc.devRef .tc main_v1) : S16384x512.Idx → EReal) (ix2 n e) = _
  rw [h]
  unfold GDn
  rw [Dg_eq, gwg_eq, gb0_eq]

theorem qrow_eq (c : Dev nD) (b : Fin 4096) : qrow (V3 m ρ) c b = Spec.unitRow (aX m c) (aGw m c) (aGb m c) b := by
  unfold qrow; rw [Xg_eq, gw1_eq, gb1_eq]

/-! ## The second region's result is the specification's sum -/

theorem echo_eq (c : Dev nD) (b : Fin 4096) :
    Gecho (V3 m ρ) c (ix2 b (0 : Fin 1)) = Spec.echo (aX m c) (aD m c) (aR m c) (aGw m c) (aGb m c) b := by
  unfold Gecho Spec.echo
  refine Eq.trans ?_ (Cert.LibSumBlocks.sum_blocks 16 1024 (fun n : Fin 16384 => Spec.term (Spec.unitRow (aX m c) (aGw m c) (aGb m c) b) (Spec.unitRow (aD m c) (aGw m c) (aGb m c) n) (Spec.wgt (aR m c) n))).symm
  refine Finset.sum_congr rfl fun j _ => ?_
  show blockSum (V3 m ρ) c b j = _
  unfold blockSum
  refine Finset.sum_congr rfl fun k _ => ?_
  show _ = Spec.term (Spec.unitRow (aX m c) (aGw m c) (aGb m c) b) (Spec.unitRow (aD m c) (aGw m c) (aGb m c) (rowOf (n := 16384) j.val k (by have := j.isLt; omega))) (Spec.wgt (aR m c) (rowOf (n := 16384) j.val k (by have := j.isLt; omega)))
  rw [qrow_eq, r21_eq]
  have hd : Dn1 (V3 m ρ) c (rowOf (n := 16384) j.val k (by have := j.isLt; omega)) = Spec.unitRow (aD m c) (aGw m c) (aGb m c) (rowOf (n := 16384) j.val k (by have := j.isLt; omega)) :=
    funext fun e => Dn1_eq m ρ c _ e
  rw [hd]

theorem W4_v8 (c : Dev nD) : W4 m ρ c (Proc.devRef .tc main_v8) = Gecho (V3 m ρ) c :=
  (W4_arr m ρ c 5).trans (final1 (V3 m ρ) c)

theorem W4_arg (c : Dev nD) (b : Ref sig .tc) (h1 : b ∉ hostOps1_W) (h0 : b ∉ hostOps0_W) (hw : ∀ w, Pipeline.arrRef spec0 w ≠ b) (hw1 : ∀ w, Pipeline.arrRef spec1 w ≠ b) :
    W4 m ρ c (Proc.devRef .tc b) = m ((c : Thread nD τ).loc b) :=
  (W4_of_ne m ρ c b hw1).trans (W3_arg m ρ c b h1 h0 hw)

/-! ## The last host stretch -/

/-- The two results, and what the last host stretch computes them from, as functions of their indices. -/
def logitsK (c : Dev nD) : S4096x1.Idx → EReal := W5 m ρ c (Proc.devRef .tc main_v14)
def predsK (c : Dev nD) : S4096x1.Idx → EReal := W5 m ρ c (Proc.devRef .tc main_v20)
def echoK (c : Dev nD) : S4096x1.Idx → EReal := W4 m ρ c (Proc.devRef .tc main_v8)
def hwK (c : Dev nD) : S1x1.Idx → EReal := W4 m ρ c (Proc.devRef .tc main_arg5)
def hbK (c : Dev nD) : S1.Idx → EReal := W4 m ρ c (Proc.devRef .tc main_arg6)

theorem logitsK_eq (c : Dev nD) : logitsK m ρ c
    = addf (F := Ideal) (φ := .f32) (mulf (F := Ideal) (φ := .f32) (echoK m ρ c)
        (broadcastInDim S4096x1 ![] bcast_S_S4096x1 (shapeCast S_ (hwK m ρ c) shapeCasts_S1x1_S_)))
      (broadcastInDim S4096x1 ![] bcast_S_S4096x1 (shapeCast S_ (hbK m ρ c) shapeCasts_S1_S_)) := by
  show StableHlo.after hostOps2 (W4 m ρ c) (Proc.devRef .tc main_v14) = _
  after_results
  rfl

/-- THE FIRST RESULT, row by row: the specification's function of the seven arguments. -/
theorem kernel_logits (c : Dev nD) (b : Fin 4096) :
    logitsK m ρ c (ix2 b (0 : Fin 1))
      = Spec.logit (aX m c) (aD m c) (aR m c) (aGw m c) (aGb m c) (aHw m c) (aHb m c) b := by
  rw [logitsK_eq]
  show echoK m ρ c (ix2 b (0 : Fin 1))
      * (broadcastInDim S4096x1 ![] bcast_S_S4096x1 (shapeCast S_ (hwK m ρ c) shapeCasts_S1x1_S_)) (ix2 b (0 : Fin 1))
      + (broadcastInDim S4096x1 ![] bcast_S_S4096x1 (shapeCast S_ (hbK m ρ c) shapeCasts_S1_S_)) (ix2 b (0 : Fin 1)) = _
  rw [broadcastInDim_apply _ bcast_S_S4096x1 _ (ix2 b (0 : Fin 1)) (fun a => a.elim0) (fun a => a.elim0),
    broadcastInDim_apply _ bcast_S_S4096x1 _ (ix2 b (0 : Fin 1)) (fun a => a.elim0) (fun a => a.elim0),
    shapeCast_apply (hwK m ρ c) shapeCasts_S1x1_S_ (fun a => a.elim0) (ix2 (0 : Fin 1) (0 : Fin 1)) (by first | rfl | decide | (rw [Shape.rowMajor_val_two]; rfl)),
    shapeCast_apply (hbK m ρ c) shapeCasts_S1_S_ (fun a => a.elim0) (ix1 (0 : Fin 1)) (by first | rfl | decide | (rw [Shape.rowMajor_val_one]; rfl))]
  have e8 : echoK m ρ c = Gecho (V3 m ρ) c := W4_v8 m ρ c
  have e5 : hwK m ρ c = m ((c : Thread nD τ).loc main_arg5) := W4_arg m ρ c main_arg5 (by decide) (by decide) (by decide) (by decide)
  have e6 : hbK m ρ c = m ((c : Thread nD τ).loc main_arg6) := W4_arg m ρ c main_arg6 (by decide) (by decide) (by decide) (by decide)
  rw [e8, echo_eq, e5, e6]
  rfl

theorem predsK_eq (c : Dev nD) : predsK m ρ c
    = Host.divf (F := Ideal) (broadcastInDim S4096x1 ![] bcast_S_S4096x1 (constant (F := Ideal) S_ .f32 0x3F800000#32))
        (addf (F := Ideal) (φ := .f32) (broadcastInDim S4096x1 ![] bcast_S_S4096x1 (constant (F := Ideal) S_ .f32 0x3F800000#32))
          (Host.exp (F := Ideal) (Host.negf (F := Ideal) (logitsK m ρ c)))) := by
  rw [logitsK_eq]
  show StableHlo.after hostOps2 (W4 m ρ c) (Proc.devRef .tc main_v20) = _
  after_results
  rfl

/-- THE SECOND RESULT is the logistic function of the first, entry by entry. -/
theorem kernel_preds (c : Dev nD) (i : S4096x1.Idx) :
    predsK m ρ c i = Ideal.div (Ideal.ofBits .f32 0x3F800000#32) (Ideal.ofBits .f32 0x3F800000#32 + Ideal.exp (-(logitsK m ρ c i))) := by
  rw [predsK_eq]
  rfl

end Cert.KernelIdeal.Hand

end
-- ==== Proof.RefSide.lean ====
import proofs.«106562_j60000693125634_2_alg».proof.Proof.Gen.ReferenceIdeal.Read
import proofs.«106562_j60000693125634_2_alg».proof.Proof.Spec
import Idealize.ShloMosaic.Lib.ValueIdx
import Idealize.ShloMosaic.Lib.Pipeline.Value
import Idealize.ShloMosaic.PureOps.Ideal.Laws

/-!
# The reference program read at an index

The reference computes, for every query row, an affine map of a weighted sum over all exemplars of the cube of the inner
product of two unit rows. Its operations are read one at a time by the generated module; here each stage is read at an
index built from literal coordinates and identified with the corresponding function of the shared specification:
the projected rows, their floored norms, the unit rows, the inner product, its signed cube (which is the third power on
every extended real), the re-centred rating, the weighted sum, and the first result.
-/

noncomputable section

namespace Cert.RefSide

open Idealize.ShloMosaic Cert.ReferenceIdeal

/-! ## The cube -/

/-- The single-precision word 0x40400000 denotes the real number three. -/
theorem three_eq : Ideal.ofBits .f32 0x40400000#32 = ((3 : ℝ) : EReal) := by
  simp [Ideal.ofBits, Ideal.ieee]
  rw [← EReal.coe_mul]
  norm_num

/-- On the reals, |r|^3 · sign r = r·r·r. -/
theorem real_cube (r : ℝ) : Real.rpow (max r (-r)) 3 * (SignType.sign r : ℝ) = r * r * r := by
  have h3 : Real.rpow (max r (-r)) 3 = (max r (-r)) ^ 3 := by
    have := Real.rpow_natCast (max r (-r)) 3
    simpa using this
  rw [h3]
  rcases lt_trichotomy r 0 with h | h | h
  · rw [sign_neg h, max_eq_right (by linarith)]; simp; ring
  · subst h; simp
  · rw [sign_pos h, max_eq_left (by linarith)]; simp; ring

/-- the cube: |a|^3 · sign a is a·a·a on every extended real -/
theorem cube_eq (a : EReal) : Ideal.pow (max a (-a)) (Ideal.ofBits .f32 0x40400000#32) * Ideal.sign a = a * a * a := by
  rw [three_eq]
  induction a using EReal.rec with
  | bot =>
    have h : max (⊥ : EReal) (-⊥) = ⊤ := by simp
    rw [h, Ideal.pow_top, Ideal.sign_bot]
    simp
  | top =>
    have h : max (⊤ : EReal) (-⊤) = ⊤ := by simp
    rw [h, Ideal.pow_top, Ideal.sign_top]
    simp
  | coe r =>
    have hm : max (r : EReal) (-(r : EReal)) = ((max r (-r) : ℝ) : EReal) := by
      rw [← EReal.coe_neg]; exact (EReal.coe_strictMono.monotone.map_max).symm
    rw [hm, Ideal.pow_coe_coe, Ideal.sign_coe, ← EReal.coe_mul, ← EReal.coe_mul, ← EReal.coe_mul]
    exact congrArg _ (real_cube r)

/-! ## Index equations: the reference's index maps at literal coordinates

Each index map of the reference's layout operations, contractions and sums, read at an index built from its coordinates,
is again such an index. -/

theorem lidx5 (b : Fin 4096) (e : Fin 512) (k : Fin 768) :
    Read.lidx_main_v5 (ValueIdx.ix2 b e) k = ValueIdx.ix2 b k :=
  funext fun a => Fin.ext (by match a with | ⟨0, _⟩ => rfl | ⟨1, _⟩ => rfl)

theorem ridx5 (b : Fin 4096) (e : Fin 512) (k : Fin 768) :
    Read.idx_main_v4 (Read.ridx_main_v5 (ValueIdx.ix2 b e) k) = ValueIdx.ix2 e k :=
  funext fun a => Fin.ext (by match a with | ⟨0, _⟩ => rfl | ⟨1, _⟩ => rfl)

theorem idx67 (b : Fin 4096) (e : Fin 512) :
    Read.idx_main_v6 (Read.idx_main_v7 (ValueIdx.ix2 b e)) = ValueIdx.ix1 e :=
  funext fun a => Fin.ext (by match a with | ⟨0, _⟩ => rfl)

theorem lidx10 (n : Fin 16384) (e : Fin 512) (k : Fin 768) :
    Read.lidx_main_v10 (ValueIdx.ix2 n e) k = ValueIdx.ix2 n k :=
  funext fun a => Fin.ext (by match a with | ⟨0, _⟩ => rfl | ⟨1, _⟩ => rfl)

theorem ridx10 (n : Fin 16384) (e : Fin 512) (k : Fin 768) :
    Read.idx_main_v9 (Read.ridx_main_v10 (ValueIdx.ix2 n e) k) = ValueIdx.ix2 e k :=
  funext fun a => Fin.ext (by match a with | ⟨0, _⟩ => rfl | ⟨1, _⟩ => rfl)

theorem idx1112 (n : Fin 16384) (e : Fin 512) :
    Read.idx_main_v11 (Read.idx_main_v12 (ValueIdx.ix2 n e)) = ValueIdx.ix1 e :=
  funext fun a => Fin.ext (by match a with | ⟨0, _⟩ => rfl)

theorem idx15 (b : Fin 4096) (k : Fin 512) : Read.idx_main_v15 (ValueIdx.ix1 b) k = ValueIdx.ix2 b k :=
  funext fun a => Fin.ext (by match a with | ⟨0, _⟩ => rfl | ⟨1, _⟩ => rfl)

theorem idx16 (b : Fin 4096) : Read.idx_main_v16 (ValueIdx.ix2 b (0 : Fin 1)) = ValueIdx.ix1 b :=
  funext fun a => Fin.ext (by match a with | ⟨0, _⟩ => rfl)

theorem idx20 (b : Fin 4096) (e : Fin 512) : Read.idx_main_v20 (ValueIdx.ix2 b e) = ValueIdx.ix2 b (0 : Fin 1) :=
  funext fun a => Fin.ext (by match a with | ⟨0, _⟩ => rfl | ⟨1, _⟩ => rfl)

theorem idx23 (n : Fin 16384) (k : Fin 512) : Read.idx_main_v23 (ValueIdx.ix1 n) k = ValueIdx.ix2 n k :=
  funext fun a => Fin.ext (by match a with | ⟨0, _⟩ => rfl | ⟨1, _⟩ => rfl)

theorem idx24 (n : Fin 16384) : Read.idx_main_v24 (ValueIdx.ix2 n (0 : Fin 1)) = ValueIdx.ix1 n :=
  funext fun a => Fin.ext (by match a with | ⟨0, _⟩ => rfl)

theorem idx28 (n : Fin 16384) (e : Fin 512) : Read.idx_main_v28 (ValueIdx.ix2 n e) = ValueIdx.ix2 n (0 : Fin 1) :=
  funext fun a => Fin.ext (by match a with | ⟨0, _⟩ => rfl | ⟨1, _⟩ => rfl)

theorem lidx31 (b : Fin 4096) (n : Fin 16384) (k : Fin 512) :
    Read.lidx_main_v31 (ValueIdx.ix2 b n) k = ValueIdx.ix2 b k :=
  funext fun a => Fin.ext (by match a with | ⟨0, _⟩ => rfl | ⟨1, _⟩ => rfl)

theorem ridx31 (b : Fin 4096) (n : Fin 16384) (k : Fin 512) :
    Read.idx_main_v30 (Read.ridx_main_v31 (ValueIdx.ix2 b n) k) = ValueIdx.ix2 n k :=
  funext fun a => Fin.ext (by match a with | ⟨0, _⟩ => rfl | ⟨1, _⟩ => rfl)

theorem lidx37 (b : Fin 4096) (k : Fin 16384) :
    Read.lidx_main_v37 (ValueIdx.ix2 b (0 : Fin 1)) k = ValueIdx.ix2 b k :=
  funext fun a => Fin.ext (by match a with | ⟨0, _⟩ => rfl | ⟨1, _⟩ => rfl)

theorem ridx37 (b : Fin 4096) (k : Fin 16384) :
    Read.ridx_main_v37 (ValueIdx.ix2 b (0 : Fin 1)) k = ValueIdx.ix2 k (0 : Fin 1) :=
  funext fun a => Fin.ext (by match a with | ⟨0, _⟩ => rfl | ⟨1, _⟩ => rfl)

theorem lidx39 (b : Fin 4096) :
    Read.lidx_main_v39 (ValueIdx.ix2 b (0 : Fin 1)) (0 : Fin 1) = ValueIdx.ix2 b (0 : Fin 1) :=
  funext fun a => Fin.ext (by match a with | ⟨0, _⟩ => rfl | ⟨1, _⟩ => rfl)

theorem ridx39 (b : Fin 4096) :
    Read.idx_main_v38 (Read.ridx_main_v39 (ValueIdx.ix2 b (0 : Fin 1)) (0 : Fin 1)) = ValueIdx.ix2 (0 : Fin 1) (0 : Fin 1) :=
  funext fun a => Fin.ext (by match a with | ⟨0, _⟩ => rfl | ⟨1, _⟩ => rfl)

theorem idx4041 (b : Fin 4096) :
    Read.idx_main_v40 (Read.idx_main_v41 (ValueIdx.ix2 b (0 : Fin 1))) = ValueIdx.ix1 (0 : Fin 1) :=
  funext fun a => Fin.ext (by match a with | ⟨0, _⟩ => rfl)

/-! ## The stages of the reference at an index -/

/-- The query rows projected: entry `e` of row `b`. -/
theorem v8_at (x0 : (⟨S4096x768, .f32⟩ : BufTy).Contents (Elt Ideal)) (x3 : (⟨S512x768, .f32⟩ : BufTy).Contents (Elt Ideal)) (x4 : (⟨S512, .f32⟩ : BufTy).Contents (Elt Ideal)) (b : Fin 4096) (e : Fin 512) :
    Read.val_main_v8 (F := Ideal) x0 x3 x4 (ValueIdx.ix2 b e)
      = Cert.Spec.proj (fun b f => x0 (ValueIdx.ix2 b f)) (fun e f => x3 (ValueIdx.ix2 e f)) (fun e => x4 (ValueIdx.ix1 e)) b e := by
  rw [Read.val_main_v8_apply, Read.val_main_v5_apply, Read.val_main_v7_apply, Read.val_main_v6_apply, idx67]
  unfold Cert.Spec.proj
  refine congrArg (· + x4 (ValueIdx.ix1 e)) (Finset.sum_congr rfl fun k _ => ?_)
  rw [Read.val_main_v4_apply, lidx5, ridx5]

/-- The exemplar rows projected: entry `e` of row `n`. -/
theorem v13_at (x1 : (⟨S16384x768, .f32⟩ : BufTy).Contents (Elt Ideal)) (x3 : (⟨S512x768, .f32⟩ : BufTy).Contents (Elt Ideal)) (x4 : (⟨S512, .f32⟩ : BufTy).Contents (Elt Ideal)) (n : Fin 16384) (e : Fin 512) :
    Read.val_main_v13 (F := Ideal) x1 x3 x4 (ValueIdx.ix2 n e)
      = Cert.Spec.proj (fun n f => x1 (ValueIdx.ix2 n f)) (fun e f => x3 (ValueIdx.ix2 e f)) (fun e => x4 (ValueIdx.ix1 e)) n e := by
  rw [Read.val_main_v13_apply, Read.val_main_v10_apply, Read.val_main_v12_apply, Read.val_main_v11_apply, idx1112]
  unfold Cert.Spec.proj
  refine congrArg (· + x4 (ValueIdx.ix1 e)) (Finset.sum_congr rfl fun k _ => ?_)
  rw [Read.val_main_v9_apply, lidx10, ridx10]

/-- The floored norm of query row `b`: the sum of squares starts from the zero word, which is zero. -/
theorem v19_at (x0 : (⟨S4096x768, .f32⟩ : BufTy).Contents (Elt Ideal)) (x3 : (⟨S512x768, .f32⟩ : BufTy).Contents (Elt Ideal)) (x4 : (⟨S512, .f32⟩ : BufTy).Contents (Elt Ideal)) (b : Fin 4096) :
    Read.val_main_v19 (F := Ideal) x0 x3 x4 (ValueIdx.ix2 b (0 : Fin 1))
      = Cert.Spec.rnorm (fun b f => x0 (ValueIdx.ix2 b f)) (fun e f => x3 (ValueIdx.ix2 e f)) (fun e => x4 (ValueIdx.ix1 e)) b := by
  rw [Read.val_main_v19_apply, Read.val_main_v17_apply, Read.val_main_v16_apply, idx16, Read.val_main_v15_apply,
    Read.val_main_v18_apply, Read.val_main_cst_2_apply, Read.val_main_cst_1_apply]
  unfold Cert.Spec.rnorm
  simp only [Ideal.ofBits_def, Ideal.ofBits_zero_f32, zero_add, Ideal.maximumf_def, Ideal.hostUnary_sqrt_def]
  refine congrArg (fun s => max (Ideal.sqrt s) Cert.Spec.epsI) (Finset.sum_congr rfl fun k _ => ?_)
  rw [Read.val_main_v14_apply, idx15, v8_at, Ideal.mulf_def]

/-- The floored norm of exemplar row `n`. -/
theorem v27_at (x1 : (⟨S16384x768, .f32⟩ : BufTy).Contents (Elt Ideal)) (x3 : (⟨S512x768, .f32⟩ : BufTy).Contents (Elt Ideal)) (x4 : (⟨S512, .f32⟩ : BufTy).Contents (Elt Ideal)) (n : Fin 16384) :
    Read.val_main_v27 (F := Ideal) x1 x3 x4 (ValueIdx.ix2 n (0 : Fin 1))
      = Cert.Spec.rnorm (fun n f => x1 (ValueIdx.ix2 n f)) (fun e f => x3 (ValueIdx.ix2 e f)) (fun e => x4 (ValueIdx.ix1 e)) n := by
  rw [Read.val_main_v27_apply, Read.val_main_v25_apply, Read.val_main_v24_apply, idx24, Read.val_main_v23_apply,
    Read.val_main_v26_apply, Read.val_main_cst_4_apply, Read.val_main_cst_3_apply]
  unfold Cert.Spec.rnorm
  simp only [Ideal.ofBits_def, Ideal.ofBits_zero_f32, zero_add, Ideal.maximumf_def, Ideal.hostUnary_sqrt_def]
  refine congrArg (fun s => max (Ideal.sqrt s) Cert.Spec.epsI) (Finset.sum_congr rfl fun k _ => ?_)
  rw [Read.val_main_v22_apply, idx23, v13_at, Ideal.mulf_def]

/-- The unit query row `b` at entry `e`. -/
theorem v21_at (x0 : (⟨S4096x768, .f32⟩ : BufTy).Contents (Elt Ideal)) (x3 : (⟨S512x768, .f32⟩ : BufTy).Contents (Elt Ideal)) (x4 : (⟨S512, .f32⟩ : BufTy).Contents (Elt Ideal)) (b : Fin 4096) (e : Fin 512) :
    Read.val_main_v21 (F := Ideal) x0 x3 x4 (ValueIdx.ix2 b e)
      = Cert.Spec.unitRow (fun b f => x0 (ValueIdx.ix2 b f)) (fun e f => x3 (ValueIdx.ix2 e f)) (fun e => x4 (ValueIdx.ix1 e)) b e := by
  unfold Cert.Spec.unitRow
  rw [Read.val_main_v21_apply, Read.val_main_v20_apply, idx20, v19_at, v8_at, Ideal.hostDivf_def]

/-- The unit exemplar row `n` at entry `e`. -/
theorem v29_at (x1 : (⟨S16384x768, .f32⟩ : BufTy).Contents (Elt Ideal)) (x3 : (⟨S512x768, .f32⟩ : BufTy).Contents (Elt Ideal)) (x4 : (⟨S512, .f32⟩ : BufTy).Contents (Elt Ideal)) (n : Fin 16384) (e : Fin 512) :
    Read.val_main_v29 (F := Ideal) x1 x3 x4 (ValueIdx.ix2 n e)
      = Cert.Spec.unitRow (fun n f => x1 (ValueIdx.ix2 n f)) (fun e f => x3 (ValueIdx.ix2 e f)) (fun e => x4 (ValueIdx.ix1 e)) n e := by
  unfold Cert.Spec.unitRow
  rw [Read.val_main_v29_apply, Read.val_main_v28_apply, idx28, v27_at, v13_at, Ideal.hostDivf_def]

/-- The inner product of unit query row `b` and unit exemplar row `n`. -/
theorem v31_at (x0 : (⟨S4096x768, .f32⟩ : BufTy).Contents (Elt Ideal)) (x1 : (⟨S16384x768, .f32⟩ : BufTy).Contents (Elt Ideal)) (x3 : (⟨S512x768, .f32⟩ : BufTy).Contents (Elt Ideal)) (x4 : (⟨S512, .f32⟩ : BufTy).Contents (Elt Ideal)) (b : Fin 4096) (n : Fin 16384) :
    Read.val_main_v31 (F := Ideal) x0 x1 x3 x4 (ValueIdx.ix2 b n)
      = ∑ e : Fin 512, Cert.Spec.unitRow (fun b f => x0 (ValueIdx.ix2 b f)) (fun e f => x3 (ValueIdx.ix2 e f)) (fun e => x4 (ValueIdx.ix1 e)) b e * Cert.Spec.unitRow (fun n f => x1 (ValueIdx.ix2 n f)) (fun e f => x3 (ValueIdx.ix2 e f)) (fun e => x4 (ValueIdx.ix1 e)) n e := by
  rw [Read.val_main_v31_apply]
  refine Finset.sum_congr rfl fun k _ => ?_
  rw [Read.val_main_v30_apply, lidx31, ridx31, v21_at, v29_at]

/-- The signed cube of the inner product is its third power. -/
theorem v36_at (x0 : (⟨S4096x768, .f32⟩ : BufTy).Contents (Elt Ideal)) (x1 : (⟨S16384x768, .f32⟩ : BufTy).Contents (Elt Ideal)) (x3 : (⟨S512x768, .f32⟩ : BufTy).Contents (Elt Ideal)) (x4 : (⟨S512, .f32⟩ : BufTy).Contents (Elt Ideal)) (b : Fin 4096) (n : Fin 16384) :
    Read.val_main_v36 (F := Ideal) x0 x1 x3 x4 (ValueIdx.ix2 b n)
      = (∑ e : Fin 512, Cert.Spec.unitRow (fun b f => x0 (ValueIdx.ix2 b f)) (fun e f => x3 (ValueIdx.ix2 e f)) (fun e => x4 (ValueIdx.ix1 e)) b e * Cert.Spec.unitRow (fun n f => x1 (ValueIdx.ix2 n f)) (fun e f => x3 (ValueIdx.ix2 e f)) (fun e => x4 (ValueIdx.ix1 e)) n e)
        * (∑ e : Fin 512, Cert.Spec.unitRow (fun b f => x0 (ValueIdx.ix2 b f)) (fun e f => x3 (ValueIdx.ix2 e f)) (fun e => x4 (ValueIdx.ix1 e)) b e * Cert.Spec.unitRow (fun n f => x1 (ValueIdx.ix2 n f)) (fun e f => x3 (ValueIdx.ix2 e f)) (fun e => x4 (ValueIdx.ix1 e)) n e)
        * (∑ e : Fin 512, Cert.Spec.unitRow (fun b f => x0 (ValueIdx.ix2 b f)) (fun e f => x3 (ValueIdx.ix2 e f)) (fun e => x4 (ValueIdx.ix1 e)) b e * Cert.Spec.unitRow (fun n f => x1 (ValueIdx.ix2 n f)) (fun e f => x3 (ValueIdx.ix2 e f)) (fun e => x4 (ValueIdx.ix1 e)) n e) := by
  rw [Read.val_main_v36_apply, Read.val_main_v34_apply, Read.val_main_v35_apply, Read.val_main_v32_apply,
    Read.val_main_v33_apply, Read.val_main_cst_5_apply, v31_at]
  simp only [Ideal.mulf_def, Ideal.hostPowf_def, Ideal.hostAbsf_def, Ideal.absf_def, Ideal.hostUnary_sign_def, Ideal.ofBits_def]
  exact cube_eq _

/-- The re-centred rating of exemplar `n`. -/
theorem v3_at (x2 : (⟨S16384x1, .f32⟩ : BufTy).Contents (Elt Ideal)) (n : Fin 16384) :
    Read.val_main_v3 (F := Ideal) x2 (ValueIdx.ix2 n (0 : Fin 1)) = Cert.Spec.wgt (fun n => x2 (ValueIdx.ix2 n (0 : Fin 1))) n := by
  rw [Read.val_main_v3_apply, Read.val_main_v1_apply, Read.val_main_v0_apply, Read.val_main_cst_apply,
    Read.val_main_v2_apply, Read.val_main_cst_0_apply]
  rfl

/-- The weighted sum over all exemplars, for query row `b`. -/
theorem v37_at (x0 : (⟨S4096x768, .f32⟩ : BufTy).Contents (Elt Ideal)) (x1 : (⟨S16384x768, .f32⟩ : BufTy).Contents (Elt Ideal)) (x2 : (⟨S16384x1, .f32⟩ : BufTy).Contents (Elt Ideal)) (x3 : (⟨S512x768, .f32⟩ : BufTy).Contents (Elt Ideal)) (x4 : (⟨S512, .f32⟩ : BufTy).Contents (Elt Ideal)) (b : Fin 4096) :
    Read.val_main_v37 (F := Ideal) x0 x1 x2 x3 x4 (ValueIdx.ix2 b (0 : Fin 1))
      = Cert.Spec.echo (fun b f => x0 (ValueIdx.ix2 b f)) (fun n f => x1 (ValueIdx.ix2 n f)) (fun n => x2 (ValueIdx.ix2 n (0 : Fin 1))) (fun e f => x3 (ValueIdx.ix2 e f)) (fun e => x4 (ValueIdx.ix1 e)) b := by
  rw [Read.val_main_v37_apply]
  unfold Cert.Spec.echo Cert.Spec.term
  refine Finset.sum_congr rfl fun k _ => ?_
  rw [lidx37, ridx37, v36_at, v3_at]

/-- The reference's first result at row `b`: the last contraction is over a single index. -/
theorem ref_logits (x0 : (⟨S4096x768, .f32⟩ : BufTy).Contents (Elt Ideal)) (x1 : (⟨S16384x768, .f32⟩ : BufTy).Contents (Elt Ideal)) (x2 : (⟨S16384x1, .f32⟩ : BufTy).Contents (Elt Ideal)) (x3 : (⟨S512x768, .f32⟩ : BufTy).Contents (Elt Ideal)) (x4 : (⟨S512, .f32⟩ : BufTy).Contents (Elt Ideal)) (x5 : (⟨S1x1, .f32⟩ : BufTy).Contents (Elt Ideal)) (x6 : (⟨S1, .f32⟩ : BufTy).Contents (Elt Ideal)) (b : Fin 4096) :
    Cert.ReferenceIdeal.Read.val_main_v42 (F := Ideal) x0 x1 x2 x3 x4 x5 x6 (ValueIdx.ix2 b (0 : Fin 1))
      = Cert.Spec.logit (fun b f => x0 (ValueIdx.ix2 b f)) (fun n f => x1 (ValueIdx.ix2 n f)) (fun n => x2 (ValueIdx.ix2 n (0 : Fin 1))) (fun e f => x3 (ValueIdx.ix2 e f)) (fun e => x4 (ValueIdx.ix1 e)) (x5 (ValueIdx.ix2 (0 : Fin 1) (0 : Fin 1))) (x6 (ValueIdx.ix1 (0 : Fin 1))) b := by
  rw [Read.val_main_v42_apply, Read.val_main_v39_apply, Read.val_main_v41_apply, Read.val_main_v40_apply, idx4041,
    Fin.sum_univ_one, Read.val_main_v38_apply, lidx39, ridx39, v37_at]
  rfl

end Cert.RefSide

end
-- ==== Proof.KIFinal.lean ====
import proofs.«106562_j60000693125634_2_alg».proof.Proof.KIGlue
import proofs.«106562_j60000693125634_2_alg».proof.Proof.RefSide
import proofs.«106562_j60000693125634_2_alg».proof.Proof.Gen.ReferenceIdeal.Read

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-! # The two programs' results agree

The reference's first result at row `b` and the kernel's are both the specification's value there; the second
result is, in both programs, the same logistic expression of the first. -/

variable (m : (ℓ : Loc nD τ sig) → Buf (Elt Ideal) ℓ) (ρ : Dev nD → PrngReg)

/-- The reference's first result on the kernel's argument arrays is the kernel's first result. -/
theorem logits_agree (c : Dev nD) :
    Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      = logitsK m ρ c := by
  funext i
  obtain ⟨b, u, rfl⟩ : ∃ (b : Fin 4096) (u : Fin 1), i = ix2 b u := ⟨i 0, i 1, eq_ix2 i⟩
  obtain rfl : u = 0 := Subsingleton.elim _ _
  rw [Cert.RefSide.ref_logits]
  exact (kernel_logits m ρ c b).symm

/-- The reference's second result is the logistic expression of its first, entry by entry. -/
theorem ref_preds (x0 : (⟨Cert.ReferenceIdeal.S4096x768, .f32⟩ : BufTy).Contents (Elt Ideal)) (x1 : (⟨Cert.ReferenceIdeal.S16384x768, .f32⟩ : BufTy).Contents (Elt Ideal))
    (x2 : (⟨Cert.ReferenceIdeal.S16384x1, .f32⟩ : BufTy).Contents (Elt Ideal)) (x3 : (⟨Cert.ReferenceIdeal.S512x768, .f32⟩ : BufTy).Contents (Elt Ideal))
    (x4 : (⟨Cert.ReferenceIdeal.S512, .f32⟩ : BufTy).Contents (Elt Ideal)) (x5 : (⟨Cert.ReferenceIdeal.S1x1, .f32⟩ : BufTy).Contents (Elt Ideal))
    (x6 : (⟨Cert.ReferenceIdeal.S1, .f32⟩ : BufTy).Contents (Elt Ideal)) (i : Cert.ReferenceIdeal.S4096x1.Idx) :
    Cert.ReferenceIdeal.Read.val_main_v48 (F := Ideal) x0 x1 x2 x3 x4 x5 x6 i
      = Ideal.div (Ideal.ofBits .f32 0x3F800000#32) (Ideal.ofBits .f32 0x3F800000#32
          + Ideal.exp (-(Cert.ReferenceIdeal.Read.val_main_v42 (F := Ideal) x0 x1 x2 x3 x4 x5 x6 i))) := by
  rw [Cert.ReferenceIdeal.Read.val_main_v48_apply, Cert.ReferenceIdeal.Read.val_main_v47_apply, Cert.ReferenceIdeal.Read.val_main_cst_7_apply,
    Cert.ReferenceIdeal.Read.val_main_v46_apply, Cert.ReferenceIdeal.Read.val_main_v45_apply, Cert.ReferenceIdeal.Read.val_main_cst_6_apply,
    Cert.ReferenceIdeal.Read.val_main_v44_apply, Cert.ReferenceIdeal.Read.val_main_v43_apply]
  generalize Cert.ReferenceIdeal.Read.val_main_v42 (F := Ideal) x0 x1 x2 x3 x4 x5 x6 i = y
  rfl

/-- The reference's second result on the kernel's argument arrays is the kernel's second result. -/
theorem preds_agree (c : Dev nD) :
    Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      = predsK m ρ c := by
  funext i
  rw [ref_preds, kernel_preds m ρ c i, logits_agree m ρ c]

end Cert.KernelIdeal.Hand

end
-- ==== Proof.lean ====
/- Two programs — a tiled kernel and a plain reference — score 4096 queries against 16384 rated exemplars:
   rows are projected and normalized, each query is compared with each exemplar by the inner product of unit rows,
   the comparisons are cubed, weighted by the re-centred ratings and summed, and an affine map and the logistic
   function of the sums are returned. On the extended reals the two programs agree entry by entry: the kernel's
   block-by-block sums regroup the reference's one sum, and the reference's |a|³·sign a is the kernel's a·a·a.
   Each program runs to the end, faults nowhere and leaves its arguments as it found them. -/
import proofs.«106562_j60000693125634_2_alg».proof.Defs
import proofs.«106562_j60000693125634_2_alg».proof.Proof.Gen.Kernel
import proofs.«106562_j60000693125634_2_alg».proof.Proof.Gen.KernelIdeal
import proofs.«106562_j60000693125634_2_alg».proof.Proof.Gen.ReferenceIdeal
import proofs.«106562_j60000693125634_2_alg».proof.Proof.Gen.Pre_finite_inputs
import proofs.«106562_j60000693125634_2_alg».proof.Proof.Gen.ReferenceIdeal.Run
import proofs.«106562_j60000693125634_2_alg».proof.Proof.Gen.ReferenceIdeal.Read
import proofs.«106562_j60000693125634_2_alg».proof.Proof.KRun
import proofs.«106562_j60000693125634_2_alg».proof.Proof.KIRun
import proofs.«106562_j60000693125634_2_alg».proof.Proof.KIFinal
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same two results. -/
theorem algebraic : Cert.algebraic_KernelIdeal_ReferenceIdeal := by
  intro m ρ m' ρ' _ hagree
  refine ⟨fun c => Cert.KernelIdeal.Hand.logitsK m ρ c, fun c => Cert.KernelIdeal.Hand.predsK m ρ c, ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v14 (by decide)),
      h c _ (Cert.KernelIdeal.Hand.mem_uc Cert.KernelIdeal.main_v20 (by decide)),
      (h c _ (Cert.KernelIdeal.Hand.mem_uc Cert.KernelIdeal.main_arg0 (by decide))).trans (Cert.KernelIdeal.Hand.W5_main_arg0 m ρ c),
      (h c _ (Cert.KernelIdeal.Hand.mem_uc Cert.KernelIdeal.main_arg1 (by decide))).trans (Cert.KernelIdeal.Hand.W5_main_arg1 m ρ c),
      (h c _ (Cert.KernelIdeal.Hand.mem_uc Cert.KernelIdeal.main_arg2 (by decide))).trans (Cert.KernelIdeal.Hand.W5_main_arg2 m ρ c),
      (h c _ (Cert.KernelIdeal.Hand.mem_uc Cert.KernelIdeal.main_arg3 (by decide))).trans (Cert.KernelIdeal.Hand.W5_main_arg3 m ρ c),
      (h c _ (Cert.KernelIdeal.Hand.mem_uc Cert.KernelIdeal.main_arg4 (by decide))).trans (Cert.KernelIdeal.Hand.W5_main_arg4 m ρ c),
      (h c _ (Cert.KernelIdeal.Hand.mem_uc Cert.KernelIdeal.main_arg5 (by decide))).trans (Cert.KernelIdeal.Hand.W5_main_arg5 m ρ c),
      (h c _ (Cert.KernelIdeal.Hand.mem_uc Cert.KernelIdeal.main_arg6 (by decide))).trans (Cert.KernelIdeal.Hand.W5_main_arg6 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v42_eq]
      obtain ⟨e0, e1, e2, e3, e4, e5, e6⟩ := hagree c
      rw [e0, e1, e2, e3, e4, e5, e6]
      exact Cert.KernelIdeal.Hand.logits_agree m ρ c
    · rw [Cert.ReferenceIdeal.Read.val_main_v48_eq]
      obtain ⟨e0, e1, e2, e3, e4, e5, e6⟩ := hagree c
      rw [e0, e1, e2, e3, e4, e5, e6]
      exact Cert.KernelIdeal.Hand.preds_agree m ρ c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
